-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x512x1024 : Shape := ⟨3, ![128, 512, 1024]⟩
abbrev S128x256 : Shape := ⟨2, ![128, 256]⟩
abbrev S128x512 : Shape := ⟨2, ![128, 512]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x512x1024 : S_.BroadcastsInDim S128x512x1024 (![] : Fin 0 → Fin S128x512x1024.rank)
  reducesTo_S128x512x1024_S_d0_1_2 : S128x512x1024.ReducesTo [0, 1, 2] S_

variable [Facts]

def fn {F : FTy → Type} [FloatOps F] (main_arg0 : FVec F S128x256x1024 .f32) (main_arg1 : FVec F S128x512x1024 .f32) (main_arg2 : FVec F S128x512x1024 .f32) (main_arg3 : IVec S128x256 32) (main_arg4 : IVec S128x512 32) (main_arg5 : IVec S128x512 32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x512x1024 .f32 := Host.absf main_arg1
  let main_cst_0 : FVec F S_ .f32 := constant S_ .f32 0x7F800000#32
  let main_v5 : FVec F S128x512x1024 .f32 := broadcastInDim S128x512x1024 ![] bcast_S_S128x512x1024 main_cst_0
  let main_v6 : IVec S128x512x1024 1 := cmpf .olt main_v4 main_v5
  let main_c_1 : IVec S_ 1 := constantI S_ 1 1#1
  let main_v7 : IVec S_ 1 := (fun x v => Host.reduce IntOp.andi x v reducesTo_S128x512x1024_S_d0_1_2 h_S_) main_v6 main_c_1
  let main_v8 : IVec S_ 1 := andi main_v3 main_v7
  let main_v9 : FVec F S128x512x1024 .f32 := Host.absf main_arg2
  let main_cst_2 : FVec F S_ .f32 := constant S_ .f32 0x7F800000#32
  let main_v10 : FVec F S128x512x1024 .f32 := broadcastInDim S128x512x1024 ![] bcast_S_S128x512x1024 main_cst_2
  let main_v11 : IVec S128x512x1024 1 := cmpf .olt main_v9 main_v10
  let main_c_3 : IVec S_ 1 := constantI S_ 1 1#1
  let main_v12 : IVec S_ 1 := (fun x v => Host.reduce IntOp.andi x v reducesTo_S128x512x1024_S_d0_1_2 h_S_) main_v11 main_c_3
  let main_v13 : IVec S_ 1 := andi main_v8 main_v12
  main_v13
-- ==== Kernel.lean ====
abbrev S128x256x1024 : Shape := ⟨3, ![128, 256, 1024]⟩
abbrev S128x512x1024 : Shape := ⟨3, ![128, 512, 1024]⟩
abbrev S128x256 : Shape := ⟨2, ![128, 256]⟩
abbrev S128x512 : Shape := ⟨2, ![128, 512]⟩
abbrev S128x1x256 : Shape := ⟨3, ![128, 1, 256]⟩
abbrev S128x1x512 : Shape := ⟨3, ![128, 1, 512]⟩
abbrev S128x1x2 : Shape := ⟨3, ![128, 1, 2]⟩
abbrev S1x256x1024 : Shape := ⟨3, ![1, 256, 1024]⟩
abbrev S1x512x1024 : Shape := ⟨3, ![1, 512, 1024]⟩
abbrev S1x1x256 : Shape := ⟨3, ![1, 1, 256]⟩
abbrev S1x1x512 : Shape := ⟨3, ![1, 1, 512]⟩
abbrev S1x1x2 : Shape := ⟨3, ![1, 1, 2]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S1x256 : Shape := ⟨2, ![1, 256]⟩
abbrev S1 : Shape := ⟨1, ![1]⟩
abbrev S1x1 : Shape := ⟨2, ![1, 1]⟩
abbrev S2 : Shape := ⟨1, ![2]⟩
abbrev S1x2 : Shape := ⟨2, ![1, 2]⟩
abbrev S128x2 : Shape := ⟨2, ![128, 2]⟩
abbrev S_ : Shape := ⟨0, ![]⟩
abbrev S128 : Shape := ⟨1, ![128]⟩
abbrev S128x1 : Shape := ⟨2, ![128, 1]⟩

abbrev nBuf : Space → Nat
  | .hbm => 36
  | .vmem => 14
  | .smem => 0
  | _ => 0

abbrev bufTy : (tb : Table) → Fin (tcTables nBuf tb) → BufTy
  | .hbm, ⟨0, _⟩ => ⟨S128x256x1024, .f32⟩
  | .hbm, ⟨1, _⟩ => ⟨S128x512x1024, .f32⟩
  | .hbm, ⟨2, _⟩ => ⟨S128x512x1024, .f32⟩
  | .hbm, ⟨3, _⟩ => ⟨S128x256, .i32⟩
  | .hbm, ⟨4, _⟩ => ⟨S128x512, .i32⟩
  | .hbm, ⟨5, _⟩ => ⟨S128x512, .i32⟩
  | .hbm, ⟨6, _⟩ => ⟨S128x1x256, .i32⟩
  | .hbm, ⟨7, _⟩ => ⟨S128x1x512, .i32⟩
  | .hbm, ⟨8, _⟩ => ⟨S128x1x512, .i32⟩
  | .hbm, ⟨9, _⟩ => ⟨S128x1x2, .f32⟩
  | .hbm, ⟨10, _⟩ => ⟨S128x2, .f32⟩
  | .hbm, ⟨11, _⟩ => ⟨S_, .f32⟩
  | .hbm, ⟨12, _⟩ => ⟨S128x2, .f32⟩
  | .hbm, ⟨13, _⟩ => ⟨S128x2, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x2, .f32⟩
  | .hbm, ⟨21, _⟩ => ⟨S128x2, .f32⟩
  | .hbm, ⟨22, _⟩ => ⟨S128x2, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S128x1, .f32⟩
  | .hbm, ⟨27, _⟩ => ⟨S128x2, .f32⟩
  | .hbm, ⟨28, _⟩ => ⟨S128x2, .f32⟩
  | .hbm, ⟨29, _⟩ => ⟨S128x1, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x256, .i32⟩
  | .local _ .vmem, ⟨7, _⟩ => ⟨S1x1x256, .i32⟩
  | .local _ .vmem, ⟨8, _⟩ => ⟨S1x1x512, .i32⟩
  | .local _ .vmem, ⟨9, _⟩ => ⟨S1x1x512, .i32⟩
  | .local _ .vmem, ⟨10, _⟩ => ⟨S1x1x512, .i32⟩
  | .local _ .vmem, ⟨11, _⟩ => ⟨S1x1x512, .i32⟩
  | .local _ .vmem, ⟨12, _⟩ => ⟨S1x1x2, .f32⟩
  | .local _ .vmem, ⟨13, _⟩ => ⟨S1x1x2, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128x256_S128x1x256 : S128x256.ShapeCasts S128x1x256
  shapeCasts_S128x512_S128x1x512 : S128x512.ShapeCasts S128x1x512
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S512_S1x512 : S512.ShapeCasts S1x512
  broadcasts_S1x512_S256x512 : S1x512.Broadcasts S256x512
  reduces_S256x512_S256 : S256x512.Reduces [1] S256
  shapeCasts_S256_S1x256 : S256.ShapeCasts S1x256
  reduces_S1x256_S1 : S1x256.Reduces [1] S1
  shapeCasts_S1_S1x1 : S1.ShapeCasts S1x1
  inpos_S1x1_p0_0 : ∀ a, (![0, 0] : Fin 2 → Nat) a < S1x1.size a
  concatenates_S1_S1_S2_d0 : Shape.Concatenates [S1, S1] S2 0
  shapeCasts_S2_S1x2 : S2.ShapeCasts S1x2
  inb_S1x1x2_S1x1x2_0_0_0 : ∀ a, (![0, 0, 0] : Fin 3 → Nat) a + S1x1x2.size a ≤ S1x1x2.size a
  h_S1x1x2 : 0 < S1x1x2.numel
  shapeCasts_S1x1x2_S1x2 : S1x1x2.ShapeCasts S1x2
  shapeCasts_S1x2_S1x1x2 : S1x2.ShapeCasts S1x1x2
  shapeCasts_S128x1x2_S128x2 : S128x1x2.ShapeCasts S128x2
  bcast_S_S128x2 : S_.BroadcastsInDim S128x2 (![] : Fin 0 → Fin S128x2.rank)
  reducesTo_S128x2_S128_d1 : S128x2.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  slices_S128x2_S128x1_0_0 : S128x2.Slices ![0, 0] S128x1
  shapeCasts_S128x1_S128 : S128x1.ShapeCasts S128
  reducesTo_S128_S_d0 : S128.ReducesTo [0] S_
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S128x256x1024.size a
  hwx0_0 : ∀ i : grid0.Coords, EltTy.bits .f32 = 32 ∨ (Rect.block (s := S128x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S128x512x1024.size a
  hwx0_1 : ∀ i : grid0.Coords, EltTy.bits .f32 = 32 ∨ (Rect.block (s := S128x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S128x512x1024.size a
  hwx0_2 : ∀ i : grid0.Coords, EltTy.bits .f32 = 32 ∨ (Rect.block (s := S128x512x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S128x1x256.size a
  hwx0_3 : ∀ i : grid0.Coords, EltTy.bits .i32 = 32 ∨ (Rect.block (s := S128x1x256) S1x1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S128x1x512.size a
  hwx0_4 : ∀ i : grid0.Coords, EltTy.bits .i32 = 32 ∨ (Rect.block (s := S128x1x512) S1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S128x1x512.size a
  hwx0_5 : ∀ i : grid0.Coords, EltTy.bits .i32 = 32 ∨ (Rect.block (s := S128x1x512) S1x1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2.size a ≤ S128x1x2.size a
  hwx0_6 : ∀ i : grid0.Coords, EltTy.bits .f32 = 32 ∨ (Rect.block (s := S128x1x2) S1x1x2.size (cc0_transform_6 i) (hinb0_6 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S128x512x1024 : Shape := ⟨3, ![128, 512, 1024]⟩
abbrev S128x256 : Shape := ⟨2, ![128, 256]⟩
abbrev S128x512 : Shape := ⟨2, ![128, 512]⟩
abbrev S_ : Shape := ⟨0, ![]⟩
abbrev S128x256x1 : Shape := ⟨3, ![128, 256, 1]⟩
abbrev S128x512x1 : Shape := ⟨3, ![128, 512, 1]⟩
abbrev S128x256x512 : Shape := ⟨3, ![128, 256, 512]⟩
abbrev S128x1x512 : Shape := ⟨3, ![128, 1, 512]⟩
abbrev S128 : Shape := ⟨1, ![128]⟩
abbrev S128x1 : Shape := ⟨2, ![128, 1]⟩
abbrev S128x2 : Shape := ⟨2, ![128, 2]⟩

abbrev nBuf : Space → Nat
  | .hbm => 86
  | .vmem => 0
  | .smem => 0
  | _ => 0

abbrev bufTy : (tb : Table) → Fin (tcTables nBuf tb) → BufTy
  | .hbm, ⟨0, _⟩ => ⟨S128x256x1024, .f32⟩
  | .hbm, ⟨1, _⟩ => ⟨S128x512x1024, .f32⟩
  | .hbm, ⟨2, _⟩ => ⟨S128x512x1024, .f32⟩
  | .hbm, ⟨3, _⟩ => ⟨S128x256, .i32⟩
  | .hbm, ⟨4, _⟩ => ⟨S128x512, .i32⟩
  | .hbm, ⟨5, _⟩ => ⟨S128x512, .i32⟩
  | .hbm, ⟨6, _⟩ => ⟨S128x256x1024, .f32⟩
  | .hbm, ⟨7, _⟩ => ⟨S_, .f32⟩
  | .hbm, ⟨8, _⟩ => ⟨S128x256, .f32⟩
  | .hbm, ⟨9, _⟩ => ⟨S128x256x1, .f32⟩
  | .hbm, ⟨10, _⟩ => ⟨S128x256x1, .f32⟩
  | .hbm, ⟨11, _⟩ => ⟨S_, .f32⟩
  | .hbm, ⟨12, _⟩ => ⟨S128x256x1, .f32⟩
  | .hbm, ⟨13, _⟩ => ⟨S128x256x1, .f32⟩
  | .hbm, ⟨14, _⟩ => ⟨S128x256x1024, .f32⟩
  | .hbm, ⟨15, _⟩ => ⟨S128x256x1024, .f32⟩
  | .hbm, ⟨16, _⟩ => ⟨S128x512x1024, .f32⟩
  | .hbm, ⟨17, _⟩ => ⟨S_, .f32⟩
  | .hbm, ⟨18, _⟩ => ⟨S128x512, .f32⟩
  | .hbm, ⟨19, _⟩ => ⟨S128x512x1, .f32⟩
  | .hbm, ⟨20, _⟩ => ⟨S128x512x1, .f32⟩
  | .hbm, ⟨21, _⟩ => ⟨S_, .f32⟩
  | .hbm, ⟨22, _⟩ => ⟨S128x512x1, .f32⟩
  | .hbm, ⟨23, _⟩ => ⟨S128x512x1, .f32⟩
  | .hbm, ⟨24, _⟩ => ⟨S128x512x1024, .f32⟩
  | .hbm, ⟨25, _⟩ => ⟨S128x512x1024, .f32⟩
  | .hbm, ⟨26, _⟩ => ⟨S128x512x1024, .f32⟩
  | .hbm, ⟨27, _⟩ => ⟨S_, .f32⟩
  | .hbm, ⟨28, _⟩ => ⟨S128x512, .f32⟩
  | .hbm, ⟨29, _⟩ => ⟨S128x512x1, .f32⟩
  | .hbm, ⟨30, _⟩ => ⟨S128x512x1, .f32⟩
  | .hbm, ⟨31, _⟩ => ⟨S_, .f32⟩
  | .hbm, ⟨32, _⟩ => ⟨S128x512x1, .f32⟩
  | .hbm, ⟨33, _⟩ => ⟨S128x512x1, .f32⟩
  | .hbm, ⟨34, _⟩ => ⟨S128x512x1024, .f32⟩
  | .hbm, ⟨35, _⟩ => ⟨S128x512x1024, .f32⟩
  | .hbm, ⟨36, _⟩ => ⟨S128x256x512, .f32⟩
  | .hbm, ⟨37, _⟩ => ⟨S128x1x512, .i32⟩
  | .hbm, ⟨38, _⟩ => ⟨S128x1x512, .f32⟩
  | .hbm, ⟨39, _⟩ => ⟨S128x256x512, .f32⟩
  | .hbm, ⟨40, _⟩ => ⟨S128x256x512, .f32⟩
  | .hbm, ⟨41, _⟩ => ⟨S_, .f32⟩
  | .hbm, ⟨42, _⟩ => ⟨S128x256, .f32⟩
  | .hbm, ⟨43, _⟩ => ⟨S128x256, .f32⟩
  | .hbm, ⟨44, _⟩ => ⟨S128x256, .f32⟩
  | .hbm, ⟨45, _⟩ => ⟨S_, .f32⟩
  | .hbm, ⟨46, _⟩ => ⟨S128, .f32⟩
  | .hbm, ⟨47, _⟩ => ⟨S128x1, .f32⟩
  | .hbm, ⟨48, _⟩ => ⟨S128x256x512, .f32⟩
  | .hbm, ⟨49, _⟩ => ⟨S128x1x512, .i32⟩
  | .hbm, ⟨50, _⟩ => ⟨S128x1x512, .f32⟩
  | .hbm, ⟨51, _⟩ => ⟨S128x256x512, .f32⟩
  | .hbm, ⟨52, _⟩ => ⟨S128x256x512, .f32⟩
  | .hbm, ⟨53, _⟩ => ⟨S_, .f32⟩
  | .hbm, ⟨54, _⟩ => ⟨S128x256, .f32⟩
  | .hbm, ⟨55, _⟩ => ⟨S128x256, .f32⟩
  | .hbm, ⟨56, _⟩ => ⟨S128x256, .f32⟩
  | .hbm, ⟨57, _⟩ => ⟨S_, .f32⟩
  | .hbm, ⟨58, _⟩ => ⟨S128, .f32⟩
  | .hbm, ⟨59, _⟩ => ⟨S128x1, .f32⟩
  | .hbm, ⟨60, _⟩ => ⟨S128x2, .f32⟩
  | .hbm, ⟨61, _⟩ => ⟨S_, .f32⟩
  | .hbm, ⟨62, _⟩ => ⟨S128x2, .f32⟩
  | .hbm, ⟨63, _⟩ => ⟨S128x2, .f32⟩
  | .hbm, ⟨64, _⟩ => ⟨S_, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128x1, .f32⟩
  | .hbm, ⟨70, _⟩ => ⟨S128x2, .f32⟩
  | .hbm, ⟨71, _⟩ => ⟨S128x2, .f32⟩
  | .hbm, ⟨72, _⟩ => ⟨S128x2, .f32⟩
  | .hbm, ⟨73, _⟩ => ⟨S_, .f32⟩
  | .hbm, ⟨74, _⟩ => ⟨S128, .f32⟩
  | .hbm, ⟨75, _⟩ => ⟨S128x1, .f32⟩
  | .hbm, ⟨76, _⟩ => ⟨S128x1, .f32⟩
  | .hbm, ⟨77, _⟩ => ⟨S128x2, .f32⟩
  | .hbm, ⟨78, _⟩ => ⟨S128x2, .f32⟩
  | .hbm, ⟨79, _⟩ => ⟨S128x1, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_call0_cst : Ref sig .tc := ⟨.hbm, 64, rfl⟩
abbrev main_call0_v0 : Ref sig .tc := ⟨.hbm, 65, rfl⟩
abbrev main_call0_cst_0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_cst_1 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_cst_11 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  reducesTo_S128x256x1024_S128x256_d2 : S128x256x1024.ReducesTo [2] S128x256
  h_S_ : 0 < S_.numel
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x1024_0_1_2 : S128x256x1.BroadcastsInDim S128x256x1024 (![0, 1, 2] : Fin 3 → Fin S128x256x1024.rank)
  reducesTo_S128x512x1024_S128x512_d2 : S128x512x1024.ReducesTo [2] S128x512
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S128x512x1_S128x512x1024_0_1_2 : S128x512x1.BroadcastsInDim S128x512x1024 (![0, 1, 2] : Fin 3 → Fin S128x512x1024.rank)
  bcast_S128x512_S128x1x512_0_2 : S128x512.BroadcastsInDim S128x1x512 (![0, 2] : Fin 2 → Fin S128x1x512.rank)
  bcast_S128x1x512_S128x256x512_0_1_2 : S128x1x512.BroadcastsInDim S128x256x512 (![0, 1, 2] : Fin 3 → Fin S128x256x512.rank)
  reducesTo_S128x256x512_S128x256_d2 : S128x256x512.ReducesTo [2] S128x256
  reducesTo_S128x256_S128_d1 : S128x256.ReducesTo [1] S128
  bcast_S128_S128x1_0 : S128.BroadcastsInDim S128x1 (![0] : Fin 1 → Fin S128x1.rank)
  concatenates_S128x1_S128x1_S128x2_d1 : Shape.Concatenates [S128x1, S128x1] S128x2 1
  bcast_S_S128x2 : S_.BroadcastsInDim S128x2 (![] : Fin 0 → Fin S128x2.rank)
  reducesTo_S128x2_S128_d1 : S128x2.ReducesTo [1] S128
  bcast_S_S128 : S_.BroadcastsInDim S128 (![] : Fin 0 → Fin S128.rank)
  bcast_S128x1_S128x2_0_1 : S128x1.BroadcastsInDim S128x2 (![0, 1] : Fin 2 → Fin S128x2.rank)
  slices_S128x2_S128x1_0_0 : S128x2.Slices ![0, 0] S128x1
  shapeCasts_S128x1_S128 : S128x1.ShapeCasts S128
  reducesTo_S128_S_d0 : S128.ReducesTo [0] S_
  dot_S128x256x1024_S128x512x1024_S128x256x512_2_2_1_1_0_0_wf : DotDims.WF S128x256x1024 S128x512x1024 S128x256x512 [2] [2] [1] [1] [0] [0]

variable [Facts₀]

def dot_S128x256x1024_S128x512x1024_S128x256x512_2_2_1_1_0_0 : DotDims S128x256x1024 S128x512x1024 S128x256x512 where
  lhsContracting := [2]
  rhsContracting := [2]
  lhsNonContracting := [1]
  rhsNonContracting := [1]
  lhsBatch := [0]
  rhsBatch := [0]
  wf := dot_S128x256x1024_S128x512x1024_S128x256x512_2_2_1_1_0_0_wf

class Facts : Prop extends Facts₀ where

variable [Facts]
-- ==== Proof.Spec.lean ====
/-
  What both programs compute, written once over rows of extended reals.

  A row `x` of `n` numbers is scaled to unit length by dividing each entry by `max (√(Σ x²), ε)`; the similarity of a
  query row and a key row is the inner product of the two scaled rows. A query row's score against a bank of keys is the
  largest, over the keys, of similarity × key weight, the maximum starting from `-∞`; a batch's logit is the sum over its
  query rows of score × query weight. Each batch has two logits, one per key bank, and the loss is one fixed function
  (`tail`) of the `[128, 2]` array of logits: division by the temperature, a log-softmax along the two classes, the
  negated first column, and its mean over the batches.
-/
import Idealize.ShloMosaic.PureOps.Ideal.Laws
import Idealize.ShloMosaic.Lib.ValueIdx

noncomputable section

namespace Cert.MaxSim

open Idealize.ShloMosaic

/-! ## Rows -/

/-- The clamp `ε` under the norm, and the value the maxima start from (`-∞`), as the patterns both programs print. -/
abbrev eps : EReal := Ideal.ofBits .f32 0x2B8CBCCC#32
abbrev negInf : EReal := Ideal.ofBits .f32 0xFF800000#32

/-- Entry `d` of the row `x` scaled to unit length: `x d / max (√(Σₑ x e · x e), ε)`. -/
def unitRow {n : ℕ} (x : Fin n → EReal) (d : Fin n) : EReal :=
  Ideal.div (x d) (max (Ideal.sqrt (∑ e : Fin n, x e * x e)) eps)

/-- The similarity of two rows: the inner product of their unit scalings. -/
def sim {n : ℕ} (q k : Fin n → EReal) : EReal := ∑ d : Fin n, unitRow q d * unitRow k d

/-- A query row's score against a bank of keys with weights `w`: the largest weighted similarity, from `-∞`. -/
def best {n K : ℕ} (q : Fin n → EReal) (keys : Fin K → Fin n → EReal) (w : Fin K → EReal) : EReal :=
  (Finset.univ : Finset (Fin K)).fold max negInf (fun k => sim q (keys k) * w k)

/-- A batch's logit: the sum over its query rows of score × query weight. -/
def logit {n K Q : ℕ} (qs : Fin Q → Fin n → EReal) (keys : Fin K → Fin n → EReal) (kw : Fin K → EReal)
    (qw : Fin Q → EReal) : EReal :=
  ∑ p : Fin Q, best (qs p) keys kw * qw p

/-! ## The logits as functions of the six argument arrays -/

/-- A weight word read as a number. -/
abbrev wt (b : BitVec 32) : EReal := FloatOps.sitofp (F := Ideal) .f32 b

/-- Batch `b`'s logit against one key bank: its 256 query rows, the bank's 512 key rows, the bank's key weights and the query
    weights, each read off the whole arrays at batch `b`. -/
def bankLogit (q : (⟨3, ![128, 256, 1024]⟩ : Shape).Idx → EReal) (keys : (⟨3, ![128, 512, 1024]⟩ : Shape).Idx → EReal)
    (qw : (⟨2, ![128, 256]⟩ : Shape).Idx → BitVec 32) (kw : (⟨2, ![128, 512]⟩ : Shape).Idx → BitVec 32) (b : Fin 128) : EReal :=
  logit (fun p e => q (ValueIdx.ix3 b p e)) (fun k e => keys (ValueIdx.ix3 b k e)) (fun k => wt (kw (ValueIdx.ix2 b k)))
    (fun p => wt (qw (ValueIdx.ix2 b p)))

/-! ## From the logits to the loss -/

abbrev S128x2 : Shape := ⟨2, ![128, 2]⟩
abbrev S128x1 : Shape := ⟨2, ![128, 1]⟩
abbrev S128 : Shape := ⟨1, ![128]⟩
abbrev S_ : Shape := ⟨0, ![]⟩

theorem h_S_ : 0 < S_.numel := by decide
theorem bcast_S_S128x2 : S_.BroadcastsInDim S128x2 (![] : Fin 0 → Fin S128x2.rank) := by decide
theorem bcast_S_S128 : S_.BroadcastsInDim S128 (![] : Fin 0 → Fin S128.rank) := by decide
theorem bcast_S128_S128x1_0 : S128.BroadcastsInDim S128x1 (![0] : Fin 1 → Fin S128x1.rank) := by decide
theorem bcast_S128x1_S128x2_0_1 : S128x1.BroadcastsInDim S128x2 (![0, 1] : Fin 2 → Fin S128x2.rank) := by decide
theorem reducesTo_S128x2_S128_d1 : S128x2.ReducesTo [1] S128 := by decide
theorem reducesTo_S128_S_d0 : S128.ReducesTo [0] S_ := by decide
theorem slices_S128x2_S128x1_0_0 : S128x2.Slices ![0, 0] S128x1 := by decide
theorem shapeCasts_S128x1_S128 : S128x1.ShapeCasts S128 := by decide

/-- Batch `b`'s logit in column `j`: against the first key bank for `j = 0`, against the second for `j = 1`. -/
def logitAt (q : (⟨3, ![128, 256, 1024]⟩ : Shape).Idx → EReal) (k1 k2 : (⟨3, ![128, 512, 1024]⟩ : Shape).Idx → EReal)
    (qw : (⟨2, ![128, 256]⟩ : Shape).Idx → BitVec 32) (w1 w2 : (⟨2, ![128, 512]⟩ : Shape).Idx → BitVec 32) (b : Fin 128) (j : Fin 2) : EReal :=
  if j.val = 0 then bankLogit q k1 qw w1 b else bankLogit q k2 qw w2 b

/-- The `[128, 2]` array of logits. -/
def logits (q : (⟨3, ![128, 256, 1024]⟩ : Shape).Idx → EReal) (k1 k2 : (⟨3, ![128, 512, 1024]⟩ : Shape).Idx → EReal)
    (qw : (⟨2, ![128, 256]⟩ : Shape).Idx → BitVec 32) (w1 w2 : (⟨2, ![128, 512]⟩ : Shape).Idx → BitVec 32) : FVec Ideal S128x2 .f32 :=
  fun i => logitAt q k1 k2 qw w1 w2 (i 0) (i 1)

/-- The logits over the temperature (the pattern of `0.05`). -/
def scaled (L : FVec Ideal S128x2 .f32) : FVec Ideal S128x2 .f32 :=
  Host.divf (F := Ideal) L (broadcastInDim S128x2 ![] bcast_S_S128x2 (constant (F := Ideal) S_ .f32 0x3D4CCCCD#32))

/-- Each row's larger entry, from `-∞`, laid back over the row. -/
def rowMax (X : FVec Ideal S128x2 .f32) : FVec Ideal S128x2 .f32 :=
  broadcastInDim S128x2 ![0, 1] bcast_S128x1_S128x2_0_1 (broadcastInDim S128x1 ![0] bcast_S128_S128x1_0
    (maximumf (broadcastInDim S128 ![] bcast_S_S128 (constant (F := Ideal) S_ .f32 0xFF800000#32))
      (Host.reduce (FloatOps.maximumf (F := Ideal) (φ := .f32)) X (constant (F := Ideal) S_ .f32 0xFF800000#32) reducesTo_S128x2_S128_d1 h_S_)))

/-- A row less its larger entry. -/
def shifted (X : FVec Ideal S128x2 .f32) : FVec Ideal S128x2 .f32 := subf X (rowMax X)

/-- The log-softmax along the two classes: the shifted row less the logarithm of the sum of its exponentials. -/
def logSoftmax (X : FVec Ideal S128x2 .f32) : FVec Ideal S128x2 .f32 :=
  subf (shifted X) (broadcastInDim S128x2 ![0, 1] bcast_S128x1_S128x2_0_1 (Host.log (F := Ideal) (broadcastInDim S128x1 ![0] bcast_S128_S128x1_0
    (Host.reduceAdd (F := Ideal) (Host.exp (F := Ideal) (shifted X)) (constant (F := Ideal) S_ .f32 0x00000000#32) reducesTo_S128x2_S128_d1 h_S_))))

/-- The loss as a function of the logits: the mean over the 128 batches of the negated first log-probability. -/
def tail (L : FVec Ideal S128x2 .f32) : FVec Ideal S_ .f32 :=
  Host.divf (F := Ideal) (Host.reduceAdd (F := Ideal) (Host.negf (F := Ideal) (shapeCast S128
      (extractStridedSlice S128x1 ![0, 0] (logSoftmax (scaled L)) slices_S128x2_S128x1_0_0) shapeCasts_S128x1_S128))
    (constant (F := Ideal) S_ .f32 0x00000000#32) reducesTo_S128_S_d0 h_S_) (constant (F := Ideal) S_ .f32 0x43000000#32)

end Cert.MaxSim

end
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Rows.lean ====
/-
  Row statistics of a two-dimensional array of extended reals, read at an index, in the spelling of vector operations.

  For an `[a, n]` array `v`: the sum along a row `p` is `Σₑ v (p, e)`; the maximum along a row, started from `-∞`, is the
  fold of `max` over the row; and the array with each row divided by `max (√(Σ v²), ε)` — the sum kept as a column `[a, 1]`
  and laid back over the row — is at `(p, d)` the unit scaling of row `p` at `d`. The inserted coordinate of a reduction
  along axis 1 of a rank-2 index is the second coordinate: `(p)` with `k` inserted is `(p, k)`.
-/
import Idealize.ShloMosaic.PureOps.Ideal.Laws
import Idealize.ShloMosaic.Lib.ValueIdx
import Idealize.ShloMosaic.Lib.Pipeline.Value
import proofs.«170633_j73358041416037_2_alg».proof.Proof.Spec
import proofs.«170633_j73358041416037_2_alg».proof.Proof.LibColumn

noncomputable section

namespace Cert.MaxSim.Rows

open Idealize.ShloMosaic Idealize.ShloMosaic.ValueIdx Cert.MaxSim

variable {a n : ℕ}

/-- Along axis 1, the index over `(p)` with coordinate `k` inserted is `(p, k)`. -/
theorem lift_row (h : (⟨2, ![a, n]⟩ : Shape).Reduces [1] ⟨1, ![a]⟩) (p : Fin a) (k : Fin n) :
    h.lift (ix1 p) k = ix2 p k :=
  funext fun c => Fin.ext (by match c with | ⟨0, _⟩ => rfl | ⟨1, _⟩ => rfl)

/-- The sum along a row. -/
theorem rowSum_apply (v : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ e : Fin n, v (ix2 p e) :=
  (Ideal.multiReduction_add_single v 0x00000000#32 h hφ hacc (ix1 p)).trans
    (Finset.sum_congr rfl fun k _ => congrArg v (lift_row h p k))

/-- The maximum along a row, from `-∞`: the fold of `max` over the row's entries. -/
theorem rowMax_apply (v : FVec Ideal ⟨2, ![a, n]⟩ .f32) (h : (⟨2, ![a, n]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ v 0xFF800000#32 h hφ hacc (ix1 p)
      = (Finset.univ : Finset (Fin n)).fold max negInf (fun k => v (ix2 p k)) :=
  (Ideal.multiReduction_maximumf_single v 0xFF800000#32 h hφ hacc (ix1 p)).trans
    (congrArg (fun f : Fin n → EReal => (Finset.univ : Finset (Fin n)).fold max negInf f)
      (funext fun k => congrArg v (lift_row h p k)))

/-- Each row divided by `max (√(Σ v²), ε)`, at `(p, d)`: the unit scaling of row `p`. -/
theorem normalize_apply (v : FVec Ideal ⟨2, ![a, n]⟩ .f32) (h : (⟨2, ![a, n]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (d : Fin n) :
    divf v (broadcastTo ⟨2, ![a, n]⟩ (maximumf (sqrt (shapeCast ⟨2, ![a, 1]⟩
        (multiReduction .add [1] ⟨1, ![a]⟩ (mulf v v) 0x00000000#32 h hφ hacc) hc))
        (broadcast ⟨2, ![a, 1]⟩ (Scalar.ofBits (F := Ideal) .f32 0x2B8CBCCC#32))) hb) (ix2 p d)
      = unitRow (fun e => v (ix2 p e)) d := by
  rw [divf_apply, Cert.Lib.Column.broadcastTo_a1_ab_apply, maximumf_apply, broadcast_apply]
  show Ideal.div (v (ix2 p d)) (max (Ideal.sqrt (shapeCast ⟨2, ![a, 1]⟩
    (multiReduction .add [1] ⟨1, ![a]⟩ (mulf v v) 0x00000000#32 h hφ hacc) hc (ix2 p (0 : Fin 1)))) eps) = _
  rw [Cert.Lib.Column.shapeCast_a_a1_apply, rowSum_apply]
  rfl

end Cert.MaxSim.Rows

end
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibUnitAxes.lean ====
/-
  Unit axes added or dropped by a re-layout, and two one-entry pieces joined, each read at an index (generic in the extents).

  A `[1, 1, n]` block viewed as an `[n]` vector reads `(0, 0, k)` at `k`; a `[B, n]` array re-laid as `[B, 1, n]` reads
  `(b, k)` at `(b, u, k)` whatever the unit coordinate, and back; the entry of a `[1, 1]` array taken at position `(0, 0)`
  is the array at `(0, 0)`; two one-entry vectors joined into a `[2]` vector read the first at `0` and the second at `1`,
  and two `[B, 1]` columns joined along the second axis into `[B, 2]` read the first at column `0` and the second at column `1`.
-/
import Idealize.ShloMosaic.Lib.Pipeline.Value
import Idealize.ShloMosaic.Lib.ValueIdx

namespace Cert.Lib.UnitAxes

open Idealize.ShloMosaic Idealize.ShloMosaic.ValueIdx

variable {α : Type}

/-- A `[1, 1, n]` array cast to `[n]` reads, at `k`, the operand at `(0, 0, k)`. -/
theorem shapeCast_11n_n_apply {n : ℕ} (x : (⟨3, ![1, 1, n]⟩ : Shape).Idx → α)
    (h : (⟨3, ![1, 1, n]⟩ : Shape).ShapeCasts ⟨1, ![n]⟩) (k : Fin n) :
    shapeCast ⟨1, ![n]⟩ x h (ix1 k) = x (ix3 (0 : Fin 1) (0 : Fin 1) k) :=
  shapeCast_apply x h _ _ (by
    rw [Shape.rowMajor_val_three, Shape.rowMajor_val_one]
    show (0 * 1 + 0) * n + k.val = k.val
    simp)

/-- A `[B, n]` array cast to `[B, 1, n]` reads, at `(b, u, k)`, the operand at `(b, k)`. -/
theorem shapeCast_bn_b1n_apply {B n : ℕ} (x : (⟨2, ![B, n]⟩ : Shape).Idx → α)
    (h : (⟨2, ![B, n]⟩ : Shape).ShapeCasts ⟨3, ![B, 1, n]⟩) (b : Fin B) (u : Fin 1) (k : Fin n) :
    shapeCast ⟨3, ![B, 1, n]⟩ x h (ix3 b u k) = x (ix2 b k) :=
  shapeCast_apply x h _ _ (by
    have hu : u.val = 0 := by omega
    rw [Shape.rowMajor_val_two, Shape.rowMajor_val_three]
    show b.val * n + k.val = (b.val * 1 + u.val) * n + k.val
    rw [hu, Nat.mul_one, Nat.add_zero])

/-- A `[B, 1, n]` array cast to `[B, n]` reads, at `(b, k)`, the operand at `(b, 0, k)`. -/
theorem shapeCast_b1n_bn_apply {B n : ℕ} (x : (⟨3, ![B, 1, n]⟩ : Shape).Idx → α)
    (h : (⟨3, ![B, 1, n]⟩ : Shape).ShapeCasts ⟨2, ![B, n]⟩) (b : Fin B) (k : Fin n) :
    shapeCast ⟨2, ![B, n]⟩ x h (ix2 b k) = x (ix3 b (0 : Fin 1) k) :=
  shapeCast_apply x h _ _ (by
    rw [Shape.rowMajor_val_three, Shape.rowMajor_val_two]
    show (b.val * 1 + 0) * n + k.val = b.val * n + k.val
    rw [Nat.mul_one, Nat.add_zero])

/-- The entry of a `[1, 1]` array taken at position `(0, 0)`. -/
theorem extractAt_00 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

/-- Two one-entry vectors joined: position `0` is the first's entry. -/
theorem concat11_zero (x y : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x⟩, ⟨⟨1, ![1]⟩, y⟩] h (ix1 (0 : Fin 2)) = x (ix1 (0 : Fin 1)) :=
  concatenate_pair_apply_left 0 x y h (ix1 (0 : Fin 2)) rfl (ix1 (0 : Fin 1)) (fun b => by
    match b with | ⟨0, _⟩ => rfl)

/-- Two one-entry vectors joined: position `1` is the second's entry. -/
theorem concat11_one (x y : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x⟩, ⟨⟨1, ![1]⟩, y⟩] h (ix1 (1 : Fin 2)) = y (ix1 (0 : Fin 1)) :=
  concatenate_pair_apply_right 0 x y h (ix1 (1 : Fin 2)) rfl rfl (ix1 (0 : Fin 1))
    (fun b hb => by match b with | ⟨0, _⟩ => exact absurd rfl hb) rfl

/-- Two `[B, 1]` columns joined along the second axis: column `0` is the first column. -/
theorem concatCols_zero {B : ℕ} (x y : (⟨2, ![B, 1]⟩ : Shape).Idx → α)
    (h : Shape.Concatenates [(⟨2, ![B, 1]⟩ : Shape), ⟨2, ![B, 1]⟩] ⟨2, ![B, 2]⟩ 1) (b : Fin B) :
    concatenate ⟨2, ![B, 2]⟩ 1 [⟨⟨2, ![B, 1]⟩, x⟩, ⟨⟨2, ![B, 1]⟩, y⟩] h (ix2 b (0 : Fin 2)) = x (ix2 b (0 : Fin 1)) :=
  concatenate_pair_apply_left 1 x y h (ix2 b (0 : Fin 2)) rfl (ix2 b (0 : Fin 1)) (fun c => by
    match c with | ⟨0, _⟩ => rfl | ⟨1, _⟩ => rfl)

/-- Two `[B, 1]` columns joined along the second axis: column `1` is the second column. -/
theorem concatCols_one {B : ℕ} (x y : (⟨2, ![B, 1]⟩ : Shape).Idx → α)
    (h : Shape.Concatenates [(⟨2, ![B, 1]⟩ : Shape), ⟨2, ![B, 1]⟩] ⟨2, ![B, 2]⟩ 1) (b : Fin B) :
    concatenate ⟨2, ![B, 2]⟩ 1 [⟨⟨2, ![B, 1]⟩, x⟩, ⟨⟨2, ![B, 1]⟩, y⟩] h (ix2 b (1 : Fin 2)) = y (ix2 b (0 : Fin 1)) :=
  concatenate_pair_apply_right 1 x y h (ix2 b (1 : Fin 2)) rfl rfl (ix2 b (0 : Fin 1))
    (fun c hc => by match c with | ⟨0, _⟩ => rfl | ⟨1, _⟩ => exact absurd rfl hc) rfl

end Cert.Lib.UnitAxes
-- ==== Proof.KernelBody.lean ====
/-
  The kernel body's arithmetic at one grid point, read at an index.

  One grid point holds one batch: a `[1, 256, 1024]` block of query rows, two `[1, 512, 1024]` blocks of key rows, and the
  three weight rows. The body scales every row to unit length, multiplies the query rows into each key bank (a product
  contracted over the 1024 entries of a row, so entry `(p, k)` is the similarity of query row `p` and key row `k`), weights
  the columns by the key weights, takes each row's maximum from `-∞`, weights by the query weights and sums over the rows.
  The two sums are stored as the block's entries `(0, 0, 0)` and `(0, 0, 1)`: the batch's two logits.
-/
import proofs.«170633_j73358041416037_2_alg».proof.Proof.Gen.KernelIdeal.Skeleton
import Idealize.ShloMosaic.Lib.ValueLayout
import proofs.«170633_j73358041416037_2_alg».proof.Proof.Rows
import proofs.«170633_j73358041416037_2_alg».proof.Proof.LibRows
import proofs.«170633_j73358041416037_2_alg».proof.Proof.LibUnitAxes

noncomputable section

namespace Cert.KernelIdeal.Body

open Cert.KernelIdeal Cert.KernelIdeal.Gen Idealize.ShloMosaic Idealize.ShloMosaic.ValueIdx Cert.MaxSim

/-! ## The product of two banks of rows, contracted along the rows -/

theorem lhs_0 (i : S256x512.Idx) (q : dot_S256x1024_S512x1024_S256x512_1_1_0_0_n_n.contr.Idx) :
    (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide),
    dif_pos (show (0 : Fin S256x1024.rank) ∈ dot_S256x1024_S512x1024_S256x512_1_1_0_0_n_n.lhsNonContracting by decide)]
  rfl
theorem lhs_1 (i : S256x512.Idx) (q : dot_S256x1024_S512x1024_S256x512_1_1_0_0_n_n.contr.Idx) :
    (dot_S256x1024_S512x1024_S256x512_1_1_0_0_n_n.lhsIdx i q 1).val = (q ⟨0, by decide⟩).val :=
  dot_S256x1024_S512x1024_S256x512_1_1_0_0_n_n.lhsIdx_val_of_single rfl i q
theorem rhs_0 (i : S256x512.Idx) (q : dot_S256x1024_S512x1024_S256x512_1_1_0_0_n_n.contr.Idx) :
    (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide),
    dif_pos (show (0 : Fin S512x1024.rank) ∈ dot_S256x1024_S512x1024_S256x512_1_1_0_0_n_n.rhsNonContracting by decide)]
  rfl
theorem rhs_1 (i : S256x512.Idx) (q : dot_S256x1024_S512x1024_S256x512_1_1_0_0_n_n.contr.Idx) :
    (dot_S256x1024_S512x1024_S256x512_1_1_0_0_n_n.rhsIdx i q 1).val = (q ⟨0, by decide⟩).val :=
  dot_S256x1024_S512x1024_S256x512_1_1_0_0_n_n.rhsIdx_val_of_single rfl i q

/-- Entry `(p, k)` of the product into the zero accumulator is the inner product of row `p` of the left bank and row `k` of the
    right bank. -/
theorem matmul_rows_apply (l : FVec Ideal S256x1024 .bf16) (r : FVec Ideal S512x1024 .bf16) (p : Fin 256) (k : Fin 512) :
    matmul dot_S256x1024_S512x1024_S256x512_1_1_0_0_n_n none l r (constant (F := Ideal) S256x512 .f32 0x00000000#32) (ix2 p k)
      = ∑ d : Fin 1024, l (ix2 p d) * r (ix2 k d) := by
  simp only [matmul]
  rw [Ideal.matmul_constant_zero_apply, ← Equiv.sum_comp (ValueIdx.contrEquiv1 dot_S256x1024_S512x1024_S256x512_1_1_0_0_n_n 1024 rfl rfl).symm]
  refine Finset.sum_congr rfl fun d _ => ?_
  have hk := ValueIdx.contrEquiv1_symm_val dot_S256x1024_S512x1024_S256x512_1_1_0_0_n_n 1024 rfl rfl d
  have el : dot_S256x1024_S512x1024_S256x512_1_1_0_0_n_n.lhsIdx (ix2 p k) ((ValueIdx.contrEquiv1 dot_S256x1024_S512x1024_S256x512_1_1_0_0_n_n 1024 rfl rfl).symm d) = ix2 p d := funext fun a => Fin.ext (by
    match a with
    | ⟨0, _⟩ => exact lhs_0 _ _
    | ⟨1, _⟩ => exact (lhs_1 _ _).trans hk)
  have er : dot_S256x1024_S512x1024_S256x512_1_1_0_0_n_n.rhsIdx (ix2 p k) ((ValueIdx.contrEquiv1 dot_S256x1024_S512x1024_S256x512_1_1_0_0_n_n 1024 rfl rfl).symm d) = ix2 k d := funext fun a => Fin.ext (by
    match a with
    | ⟨0, _⟩ => exact rhs_0 _ _
    | ⟨1, _⟩ => exact (rhs_1 _ _).trans hk)
  rw [el, er]

/-! ## The payloads -/

/-- The scaled query rows. -/
theorem pay2_apply (x0 : Vec Ideal S1x256x1024 .f32) (p : Fin 256) (d : Fin 1024) :
    k0_pay2 (F := Ideal) x0 (ix2 p d) = unitRow (fun e => x0 (ix3 (0 : Fin 1) p e)) d := by
  unfold k0_pay2
  refine (Rows.normalize_apply (shapeCast S256x1024 x0 shapeCasts_S1x256x1024_S256x1024) reduces_S256x1024_S256 (.inl rfl) rfl
    shapeCasts_S256_S256x1 broadcasts_S256x1_S256x1024 p d).trans ?_
  exact congrArg (fun f : Fin 1024 → EReal => unitRow f d) (funext fun e => shapeCast_1ab_ab_apply x0 _ p e)

/-- The scaled rows of a key bank (the spelling both similarity payloads share). -/
theorem keys_apply (x : Vec Ideal S1x512x1024 .f32) (k : Fin 512) (d : Fin 1024) :
    divf (shapeCast S512x1024 x shapeCasts_S1x512x1024_S512x1024) (broadcastTo S512x1024 (maximumf (sqrt (shapeCast S512x1
        (multiReduction .add [1] S512 (mulf (shapeCast S512x1024 x shapeCasts_S1x512x1024_S512x1024) (shapeCast S512x1024 x shapeCasts_S1x512x1024_S512x1024))
          0x00000000#32 reduces_S512x1024_S512 (.inl rfl) rfl) shapeCasts_S512_S512x1))
        (broadcast S512x1 (Scalar.ofBits (F := Ideal) .f32 0x2B8CBCCC#32))) broadcasts_S512x1_S512x1024) (ix2 k d)
      = unitRow (fun e => x (ix3 (0 : Fin 1) k e)) d :=
  (Rows.normalize_apply (shapeCast S512x1024 x shapeCasts_S1x512x1024_S512x1024) reduces_S512x1024_S512 (.inl rfl) rfl
    shapeCasts_S512_S512x1 broadcasts_S512x1_S512x1024 k d).trans
    (congrArg (fun f : Fin 1024 → EReal => unitRow f d) (funext fun e => shapeCast_1ab_ab_apply x _ k e))

/-- Entry `(p, k)` of the first similarity payload. -/
theorem pay3_apply (x0 : Vec Ideal S1x256x1024 .f32) (x1 : Vec Ideal S1x512x1024 .f32) (p : Fin 256) (k : Fin 512) :
    k0_pay3 (F := Ideal) x0 x1 (ix2 p k) = sim (fun e => x0 (ix3 (0 : Fin 1) p e)) (fun e => x1 (ix3 (0 : Fin 1) k e)) := by
  unfold k0_pay3 sim
  refine (matmul_rows_apply (k0_pay2 x0) _ p k).trans ?_
  refine Finset.sum_congr rfl fun d _ => ?_
  rw [pay2_apply]
  exact congrArg (HMul.hMul _) (keys_apply x1 k d)

/-- Entry `(p, k)` of the second similarity payload. -/
theorem pay4_apply (x0 : Vec Ideal S1x256x1024 .f32) (x2 : Vec Ideal S1x512x1024 .f32) (p : Fin 256) (k : Fin 512) :
    k0_pay4 (F := Ideal) x0 x2 (ix2 p k) = sim (fun e => x0 (ix3 (0 : Fin 1) p e)) (fun e => x2 (ix3 (0 : Fin 1) k e)) := by
  unfold k0_pay4 sim
  refine (matmul_rows_apply (k0_pay2 x0) _ p k).trans ?_
  refine Finset.sum_congr rfl fun d _ => ?_
  rw [pay2_apply]
  exact congrArg (HMul.hMul _) (keys_apply x2 k d)

/-- The first bank's key weights. -/
theorem pay5_apply (x4 : Vec Ideal S1x1x512 .i32) (k : Fin 512) :
    k0_pay5 (F := Ideal) x4 (ix1 k) = wt (x4 (ix3 (0 : Fin 1) (0 : Fin 1) k)) := by
  unfold k0_pay5
  exact congrArg (FloatOps.sitofp (F := Ideal) .f32) (Cert.Lib.UnitAxes.shapeCast_11n_n_apply x4 _ k)

/-- A similarity array weighted by columns, maximised along rows from `-∞`, weighted by rows and summed. -/
theorem scoreSum_apply (S : FVec Ideal S256x512 .f32) (w : FVec Ideal S512 .f32) (qw : FVec Ideal S256 .f32) :
    extractAt ![0, 0] (shapeCast S1x1 (multiReduction .add [1] S1 (shapeCast S1x256 (mulf
        (multiReduction .maximumf [1] S256 (mulf S (broadcastTo S256x512 (shapeCast S1x512 w shapeCasts_S512_S1x512) broadcasts_S1x512_S256x512))
          0xFF800000#32 reduces_S256x512_S256 (.inl rfl) rfl) qw) shapeCasts_S256_S1x256)
        0x00000000#32 reduces_S1x256_S1 (.inl rfl) rfl) shapeCasts_S1_S1x1) inpos_S1x1_p0_0
      = ∑ p : Fin 256, (Finset.univ : Finset (Fin 512)).fold max negInf (fun k => S (ix2 p k) * w (ix1 k)) * qw (ix1 p) := by
  refine (Cert.Lib.UnitAxes.extractAt_00 _ _).trans ?_
  refine (shapeCast_a_1a_apply _ _ (0 : Fin 1) (0 : Fin 1)).trans ?_
  refine (Rows.rowSum_apply _ _ _ _ (0 : Fin 1)).trans ?_
  refine Finset.sum_congr rfl fun p _ => ?_
  refine (shapeCast_a_1a_apply _ _ (0 : Fin 1) p).trans ?_
  show multiReduction .maximumf [1] S256 (mulf S (broadcastTo S256x512 (shapeCast S1x512 w shapeCasts_S512_S1x512) broadcasts_S1x512_S256x512))
    0xFF800000#32 reduces_S256x512_S256 (.inl rfl) rfl (ix1 p) * qw (ix1 p) = _
  refine congrArg (fun z : EReal => z * qw (ix1 p)) ?_
  refine (Rows.rowMax_apply _ _ _ _ p).trans ?_
  refine congrArg (fun f : Fin 512 → EReal => (Finset.univ : Finset (Fin 512)).fold max negInf f) (funext fun k => ?_)
  show S (ix2 p k) * broadcastTo S256x512 (shapeCast S1x512 w shapeCasts_S512_S1x512) broadcasts_S1x512_S256x512 (ix2 p k) = _
  exact congrArg (fun z : EReal => S (ix2 p k) * z)
    ((Cert.Lib.Rows.broadcastTo_row_apply _ _ p k).trans (shapeCast_a_1a_apply _ _ (0 : Fin 1) k))

/-- The stored block's entry `(0, 0, 0)`: the first bank's weighted sum of row maxima. -/
theorem pay1_apply_zero (v33 v34 : FVec Ideal S256x512 .f32) (v37 : FVec Ideal S512 .f32) (v38 : Vec Ideal S1x1x512 .i32)
    (v41 : Vec Ideal S1x1x256 .i32) :
    k0_pay1 (F := Ideal) v33 v34 v37 v38 v41 (ix3 (0 : Fin 1) (0 : Fin 1) (0 : Fin 2))
      = ∑ p : Fin 256, (Finset.univ : Finset (Fin 512)).fold max negInf (fun k => v33 (ix2 p k) * v37 (ix1 k))
          * wt (v41 (ix3 (0 : Fin 1) (0 : Fin 1) p)) := by
  unfold k0_pay1
  refine (shapeCast_ab_1ab_apply _ _ (0 : Fin 1) (0 : Fin 1) (0 : Fin 2)).trans ?_
  refine (shapeCast_a_1a_apply _ _ (0 : Fin 1) (0 : Fin 2)).trans ?_
  refine (Cert.Lib.UnitAxes.concat11_zero _ _ _).trans ?_
  rw [broadcast_apply]
  refine (scoreSum_apply v33 v37 _).trans ?_
  refine Finset.sum_congr rfl fun p _ => ?_
  exact congrArg (HMul.hMul _) (congrArg (FloatOps.sitofp (F := Ideal) .f32) (Cert.Lib.UnitAxes.shapeCast_11n_n_apply v41 _ p))

/-- The stored block's entry `(0, 0, 1)`: the second bank's. -/
theorem pay1_apply_one (v33 v34 : FVec Ideal S256x512 .f32) (v37 : FVec Ideal S512 .f32) (v38 : Vec Ideal S1x1x512 .i32)
    (v41 : Vec Ideal S1x1x256 .i32) :
    k0_pay1 (F := Ideal) v33 v34 v37 v38 v41 (ix3 (0 : Fin 1) (0 : Fin 1) (1 : Fin 2))
      = ∑ p : Fin 256, (Finset.univ : Finset (Fin 512)).fold max negInf (fun k => v34 (ix2 p k) * wt (v38 (ix3 (0 : Fin 1) (0 : Fin 1) k)))
          * wt (v41 (ix3 (0 : Fin 1) (0 : Fin 1) p)) := by
  unfold k0_pay1
  refine (shapeCast_ab_1ab_apply _ _ (0 : Fin 1) (0 : Fin 1) (1 : Fin 2)).trans ?_
  refine (shapeCast_a_1a_apply _ _ (0 : Fin 1) (1 : Fin 2)).trans ?_
  refine (Cert.Lib.UnitAxes.concat11_one _ _ _).trans ?_
  rw [broadcast_apply]
  refine (scoreSum_apply v34 _ _).trans ?_
  refine Finset.sum_congr rfl fun p _ => ?_
  refine congrArg₂ (fun y z : EReal => y * z) ?_ ?_
  · refine congrArg (fun f : Fin 512 → EReal => (Finset.univ : Finset (Fin 512)).fold max negInf f) (funext fun k => ?_)
    exact congrArg (fun z : EReal => v34 (ix2 p k) * z)
      (congrArg (FloatOps.sitofp (F := Ideal) .f32) (Cert.Lib.UnitAxes.shapeCast_11n_n_apply v38 _ k))
  · exact congrArg (FloatOps.sitofp (F := Ideal) .f32) (Cert.Lib.UnitAxes.shapeCast_11n_n_apply v41 _ p)

/-! ## What the body stores, as the two logits of the point's batch -/

/-- Entry `(0, 0, 0)` of the stored block is the batch's logit against the first key bank. -/
theorem stored_zero (x0 : Vec Ideal S1x256x1024 .f32) (x1 x2 : Vec Ideal S1x512x1024 .f32) (x3 : Vec Ideal S1x1x256 .i32)
    (x4 x5 : Vec Ideal S1x1x512 .i32) :
    k0_pay1 (F := Ideal) (k0_pay3 x0 x1) (k0_pay4 x0 x2) (k0_pay5 x4) x5 x3 (ix3 (0 : Fin 1) (0 : Fin 1) (0 : Fin 2))
      = logit (fun p e => x0 (ix3 (0 : Fin 1) p e)) (fun k e => x1 (ix3 (0 : Fin 1) k e))
          (fun k => wt (x4 (ix3 (0 : Fin 1) (0 : Fin 1) k))) (fun p => wt (x3 (ix3 (0 : Fin 1) (0 : Fin 1) p))) := by
  refine (pay1_apply_zero _ _ _ _ _).trans ?_
  unfold logit best
  refine Finset.sum_congr rfl fun p _ => ?_
  refine congrArg (fun z : EReal => z * wt (x3 (ix3 (0 : Fin 1) (0 : Fin 1) p))) ?_
  refine congrArg (fun f : Fin 512 → EReal => (Finset.univ : Finset (Fin 512)).fold max negInf f) (funext fun k => ?_)
  rw [pay3_apply, pay5_apply]

/-- Entry `(0, 0, 1)` of the stored block is the batch's logit against the second key bank. -/
theorem stored_one (x0 : Vec Ideal S1x256x1024 .f32) (x1 x2 : Vec Ideal S1x512x1024 .f32) (x3 : Vec Ideal S1x1x256 .i32)
    (x4 x5 : Vec Ideal S1x1x512 .i32) :
    k0_pay1 (F := Ideal) (k0_pay3 x0 x1) (k0_pay4 x0 x2) (k0_pay5 x4) x5 x3 (ix3 (0 : Fin 1) (0 : Fin 1) (1 : Fin 2))
      = logit (fun p e => x0 (ix3 (0 : Fin 1) p e)) (fun k e => x2 (ix3 (0 : Fin 1) k e))
          (fun k => wt (x5 (ix3 (0 : Fin 1) (0 : Fin 1) k))) (fun p => wt (x3 (ix3 (0 : Fin 1) (0 : Fin 1) p))) := by
  refine (pay1_apply_one _ _ _ _ _).trans ?_
  unfold logit best
  refine Finset.sum_congr rfl fun p _ => ?_
  refine congrArg (fun z : EReal => z * wt (x3 (ix3 (0 : Fin 1) (0 : Fin 1) p))) ?_
  refine congrArg (fun f : Fin 512 → EReal => (Finset.univ : Finset (Fin 512)).fold max negInf f) (funext fun k => ?_)
  rw [pay4_apply]

end Cert.KernelIdeal.Body

end
-- ==== Proof.KernelArray.lean ====
/-
  The kernel's output array after the run, as one function of the arrays the region finds.

  Grid point `t` works on batch `t`: every window's block at `t` is row `t` of its array along the first axis, whole along
  the others, so the block's entry `(0, r, e)` is the array's entry `(t, r, e)`. What point `t` writes back is therefore the
  pair of logits of batch `t`, and since the 128 blocks of the `[128, 1, 2]` output tile it, the output array ends holding, at
  `(b, 0, j)`, batch `b`'s logit against key bank `j`. The three weight arrays the region reads are the `[128, n]` arguments
  re-laid as `[128, 1, n]` before the region.
-/
import proofs.«170633_j73358041416037_2_alg».proof.Proof.Gen.KernelIdeal.Frame
import Idealize.ShloMosaic.Lib.Pipeline.Value
import Idealize.ShloMosaic.Lib.StableHlo.Run
import proofs.«170633_j73358041416037_2_alg».proof.Proof.KernelBody

set_option maxRecDepth 16384

noncomputable section

namespace Cert.KernelIdeal.Array

open Cert.KernelIdeal Cert.KernelIdeal.Gen Idealize.ShloMosaic Idealize.ShloMosaic.ValueIdx Idealize.ShloMosaic.TcCoe
open Idealize.SL.Sem Cert.MaxSim Cert.KernelIdeal.Body

/-! ## One block against the whole arrays -/

/-- Batch `b`'s logit in column `j`, read off the six arrays the windows stage (the weights already laid `[128, 1, n]`). -/
def arrayAt (A0 : S128x256x1024.Idx → EReal) (A1 A2 : S128x512x1024.Idx → EReal) (A3 : S128x1x256.Idx → BitVec 32)
    (A4 A5 : S128x1x512.Idx → BitVec 32) (b : Fin 128) (j : Fin 2) : EReal :=
  if j.val = 0 then
    logit (fun p e => A0 (ix3 b p e)) (fun k e => A1 (ix3 b k e)) (fun k => wt (A4 (ix3 b (0 : Fin 1) k))) (fun p => wt (A3 (ix3 b (0 : Fin 1) p)))
  else
    logit (fun p e => A0 (ix3 b p e)) (fun k e => A2 (ix3 b k e)) (fun k => wt (A5 (ix3 b (0 : Fin 1) k))) (fun p => wt (A3 (ix3 b (0 : Fin 1) p)))

/-- The output array's contents: at `(b, 0, j)` batch `b`'s logit in column `j`. -/
def arrayOf (A0 : S128x256x1024.Idx → EReal) (A1 A2 : S128x512x1024.Idx → EReal) (A3 : S128x1x256.Idx → BitVec 32)
    (A4 A5 : S128x1x512.Idx → BitVec 32) : S128x1x2.Idx → EReal := fun i => arrayAt A0 A1 A2 A3 A4 A5 (i 0) (i 2)

/-- Blocks that are row `b` of their arrays store row `b` of `arrayOf`. -/
theorem block_eq (x0 : Vec Ideal S1x256x1024 .f32) (x1 x2 : Vec Ideal S1x512x1024 .f32) (x3 : Vec Ideal S1x1x256 .i32)
    (x4 x5 : Vec Ideal S1x1x512 .i32)
    (A0 : S128x256x1024.Idx → EReal) (A1 A2 : S128x512x1024.Idx → EReal) (A3 : S128x1x256.Idx → BitVec 32)
    (A4 A5 : S128x1x512.Idx → BitVec 32) (b : Fin 128)
    (h0 : ∀ (p : Fin 256) (e : Fin 1024), x0 (ix3 (0 : Fin 1) p e) = A0 (ix3 b p e))
    (h1 : ∀ (k : Fin 512) (e : Fin 1024), x1 (ix3 (0 : Fin 1) k e) = A1 (ix3 b k e))
    (h2 : ∀ (k : Fin 512) (e : Fin 1024), x2 (ix3 (0 : Fin 1) k e) = A2 (ix3 b k e))
    (h3 : ∀ p : Fin 256, x3 (ix3 (0 : Fin 1) (0 : Fin 1) p) = A3 (ix3 b (0 : Fin 1) p))
    (h4 : ∀ k : Fin 512, x4 (ix3 (0 : Fin 1) (0 : Fin 1) k) = A4 (ix3 b (0 : Fin 1) k))
    (h5 : ∀ k : Fin 512, x5 (ix3 (0 : Fin 1) (0 : Fin 1) k) = A5 (ix3 b (0 : Fin 1) k))
    (u v : Fin 1) (j : Fin 2) :
    k0_pay1 (F := Ideal) (k0_pay3 x0 x1) (k0_pay4 x0 x2) (k0_pay5 x4) x5 x3 (ix3 u v j)
      = arrayOf A0 A1 A2 A3 A4 A5 (ix3 b (0 : Fin 1) j) := by
  obtain rfl : u = 0 := Subsingleton.elim _ _
  obtain rfl : v = 0 := Subsingleton.elim _ _
  match j with
  | ⟨0, _⟩ =>
    refine (stored_zero x0 x1 x2 x3 x4 x5).trans ?_
    show _ = arrayAt A0 A1 A2 A3 A4 A5 b (0 : Fin 2)
    unfold arrayAt
    rw [if_pos (show ((0 : Fin 2) : ℕ) = 0 from rfl)]
    simp only [h0, h1, h3, h4]
  | ⟨1, _⟩ =>
    refine (stored_one x0 x1 x2 x3 x4 x5).trans ?_
    show _ = arrayAt A0 A1 A2 A3 A4 A5 b (1 : Fin 2)
    unfold arrayAt
    rw [if_neg (show ¬ ((1 : Fin 2) : ℕ) = 0 from by decide)]
    simp only [h0, h2, h3, h5]

/-! ## The windows' blocks at a point -/

variable (m : (ℓ : Loc nD τ sig) → Buf (Elt Ideal) ℓ)

theorem hz3 : (![0, 0, 0] : Fin 3 → Nat) = fun _ => 0 := funext fun a => by fin_cases a <;> rfl

/-- The printed index maps, decided over the grid: at point `t` every window's block index is `(t, 0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- The batch a point works on. -/
abbrev batch (t : Fin cfg0.N) : Fin 128 := Fin.cast N_0 t

/-- A query block is its batch's rows of the query array. -/
theorem blk0 (c : Dev nD) (t : Fin cfg0.N) (p : Fin 256) (e : Fin 1024) :
    iblk m c 0 t (ix3 (0 : Fin 1) p e) = (V m c main_arg0 : S128x256x1024.Idx → EReal) (ix3 (batch t) p e) := by
  obtain ⟨⟨e0, e1, e2⟩, -⟩ := idx_facts t
  show V m c main_arg0 (((cfg0.win 0).blk t).view.emb (ix3 (0 : Fin 1) p e)) = V m c main_arg0 (ix3 (batch t) p e)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 256 + 1 * p.val = p.val; omega
  | ⟨2, _⟩ => show win0_0.index t (2 : Fin 3) * 1024 + 1 * e.val = e.val; omega

theorem blk1 (c : Dev nD) (t : Fin cfg0.N) (k : Fin 512) (e : Fin 1024) :
    iblk m c 1 t (ix3 (0 : Fin 1) k e) = (V m c main_arg1 : S128x512x1024.Idx → EReal) (ix3 (batch t) k e) := by
  obtain ⟨-, ⟨e0, e1, e2⟩, -⟩ := idx_facts t
  show V m c main_arg1 (((cfg0.win 1).blk t).view.emb (ix3 (0 : Fin 1) k e)) = V m c main_arg1 (ix3 (batch t) k e)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * k.val = k.val; omega
  | ⟨2, _⟩ => show win0_1.index t (2 : Fin 3) * 1024 + 1 * e.val = e.val; omega

theorem blk2 (c : Dev nD) (t : Fin cfg0.N) (k : Fin 512) (e : Fin 1024) :
    iblk m c 2 t (ix3 (0 : Fin 1) k e) = (V m c main_arg2 : S128x512x1024.Idx → EReal) (ix3 (batch t) k e) := by
  obtain ⟨-, -, ⟨e0, e1, e2⟩, -⟩ := idx_facts t
  show V m c main_arg2 (((cfg0.win 2).blk t).view.emb (ix3 (0 : Fin 1) k e)) = V m c main_arg2 (ix3 (batch t) k e)
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 512 + 1 * k.val = k.val; omega
  | ⟨2, _⟩ => show win0_2.index t (2 : Fin 3) * 1024 + 1 * e.val = e.val; omega

theorem blk3 (c : Dev nD) (t : Fin cfg0.N) (p : Fin 256) :
    iblk m c 3 t (ix3 (0 : Fin 1) (0 : Fin 1) p) = (V m c main_v0 : S128x1x256.Idx → BitVec 32) (ix3 (batch t) (0 : Fin 1) p) := by
  obtain ⟨-, -, -, ⟨e0, e1, e2⟩, -⟩ := idx_facts t
  show V m c main_v0 (((cfg0.win 3).blk t).view.emb (ix3 (0 : Fin 1) (0 : Fin 1) p)) = V m c main_v0 (ix3 (batch t) (0 : Fin 1) p)
  refine congrArg (V m c main_v0) (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 256 + 1 * p.val = p.val; omega

theorem blk4 (c : Dev nD) (t : Fin cfg0.N) (k : Fin 512) :
    iblk m c 4 t (ix3 (0 : Fin 1) (0 : Fin 1) k) = (V m c main_v1 : S128x1x512.Idx → BitVec 32) (ix3 (batch t) (0 : Fin 1) k) := by
  obtain ⟨-, -, -, -, ⟨e0, e1, e2⟩, -⟩ := idx_facts t
  show V m c main_v1 (((cfg0.win 4).blk t).view.emb (ix3 (0 : Fin 1) (0 : Fin 1) k)) = V m c main_v1 (ix3 (batch t) (0 : Fin 1) k)
  refine congrArg (V m c main_v1) (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 512 + 1 * k.val = k.val; omega

theorem blk5 (c : Dev nD) (t : Fin cfg0.N) (k : Fin 512) :
    iblk m c 5 t (ix3 (0 : Fin 1) (0 : Fin 1) k) = (V m c main_v2 : S128x1x512.Idx → BitVec 32) (ix3 (batch t) (0 : Fin 1) k) := by
  obtain ⟨-, -, -, -, -, ⟨e0, e1, e2⟩, -⟩ := idx_facts t
  show V m c main_v2 (((cfg0.win 5).blk t).view.emb (ix3 (0 : Fin 1) (0 : Fin 1) k)) = V m c main_v2 (ix3 (batch t) (0 : Fin 1) k)
  refine congrArg (V m c main_v2) (funext fun a => Fin.ext ?_)
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 512 + 1 * k.val = k.val; omega

/-! ## What a point writes back, the cover, and the array -/

/-- The output array as the run leaves it, in the arrays the region finds. -/
def found (c : Dev nD) : S128x1x2.Idx → EReal :=
  arrayOf (V m c main_arg0) (V m c main_arg1) (V m c main_arg2) (V m c main_v0) (V m c main_v1) (V m c main_v2)

/-- What point `t` writes back is block `t` of `found`. -/
theorem flushed_eq (c : Dev nD) (t : Fin cfg0.N) :
    (dats m 0 c).flushed 6 t = ((cfg0.win 6).blk t).view.read (Elt Ideal) (found m c) := by
  show (cfg0.win 6).cut (grid0.coords t) ((dats m 0 c).after 6 t) = _
  rw [after0_6]
  unfold out0_6
  rw [View.canon_unit_zero hz3]
  simp only [View.ld_unit_zero (S := S1x256x1024) hz3, View.ld_unit_zero (S := S1x512x1024) hz3,
    View.ld_unit_zero (S := S1x1x512) hz3, View.ld_unit_zero (S := S1x1x256) hz3]
  obtain ⟨-, -, -, -, -, -, ⟨e0, e1, e2⟩⟩ := idx_facts t
  funext y
  obtain ⟨u, v, j, rfl⟩ : ∃ (u : Fin 1) (v : Fin 1) (j : Fin 2), y = ix3 u v j := ⟨y 0, y 1, y 2, eq_ix3 y⟩
  have hemb : ((cfg0.win 6).blk t).view.emb (ix3 u v j) = ix3 (batch t) (0 : Fin 1) j := funext fun a => Fin.ext (by
    have hu : u.val = 0 := by omega
    have hv : v.val = 0 := by omega
    match a with
    | ⟨0, _⟩ => show win0_6.index t (0 : Fin 3) * 1 + 1 * u.val = t.val; omega
    | ⟨1, _⟩ => show win0_6.index t (1 : Fin 3) * 1 + 1 * v.val = 0; omega
    | ⟨2, _⟩ => show win0_6.index t (2 : Fin 3) * 2 + 1 * j.val = j.val; omega)
  show k0_pay1 (F := Ideal) (k0_pay3 (iblk m c 0 t) (iblk m c 1 t)) (k0_pay4 (iblk m c 0 t) (iblk m c 2 t)) (k0_pay5 (iblk m c 4 t))
    (iblk m c 5 t) (iblk m c 3 t) (ix3 u v j) = found m c (((cfg0.win 6).blk t).view.emb (ix3 u v j))
  rw [hemb]
  exact block_eq (iblk m c 0 t) (iblk m c 1 t) (iblk m c 2 t) (iblk m c 3 t) (iblk m c 4 t) (iblk m c 5 t)
    (V m c main_arg0) (V m c main_arg1) (V m c main_arg2) (V m c main_v0) (V m c main_v1) (V m c main_v2) (batch t)
    (blk0 m c t) (blk1 m c t) (blk2 m c t) (blk3 m c t) (blk4 m c t) (blk5 m c t) u v j

/-- An index of the output array is in point `t`'s block iff each coordinate is in the block's range on its axis. -/
theorem mem_blk (t : Fin cfg0.N) (i : S128x1x2.Idx) :
    i ∈ ((cfg0.win 6).blk t).view.set ↔ ∀ a : Fin 3, win0_6.index t a * S1x1x2.size a ≤ (i a).val ∧ (i a).val < win0_6.index t a * S1x1x2.size a + S1x1x2.size a := by
  show i ∈ ((View.whole main_v3).slice (win0_6.rect t)).set ↔ _
  rw [View.set_slice_whole, Rect.mem_set_unit]
  exact Iff.rfl

/-- Every index of the output array is in the block of the point of its batch. -/
theorem cover (i : S128x1x2.Idx) : ∃ t : Fin cfg0.N, (cfg0.win 6).flush t = true ∧ i ∈ ((cfg0.win 6).blk t).view.set := by
  have hi0 : (i 0).val < 128 := (i 0).isLt
  have hi1 : (i 1).val < 1 := (i 1).isLt
  have hi2 : (i 2).val < 2 := (i 2).isLt
  refine ⟨Fin.cast N_0.symm ⟨(i 0).val, hi0⟩, flush0_6 _, ?_⟩
  obtain ⟨-, -, -, -, -, -, ⟨e0, e1, e2⟩⟩ := idx_facts (Fin.cast N_0.symm ⟨(i 0).val, hi0⟩)
  have e0' : win0_6.index (Fin.cast N_0.symm ⟨(i 0).val, hi0⟩) (0 : Fin 3) = (i 0).val := e0
  rw [mem_blk]
  intro a
  match a with
  | ⟨0, _⟩ =>
    show win0_6.index (Fin.cast N_0.symm ⟨(i 0).val, hi0⟩) (0 : Fin 3) * 1 ≤ (i 0).val ∧ (i 0).val < win0_6.index (Fin.cast N_0.symm ⟨(i 0).val, hi0⟩) (0 : Fin 3) * 1 + 1
    omega
  | ⟨1, _⟩ =>
    show win0_6.index (Fin.cast N_0.symm ⟨(i 0).val, hi0⟩) (1 : Fin 3) * 1 ≤ (i 1).val ∧ (i 1).val < win0_6.index (Fin.cast N_0.symm ⟨(i 0).val, hi0⟩) (1 : Fin 3) * 1 + 1
    omega
  | ⟨2, _⟩ =>
    show win0_6.index (Fin.cast N_0.symm ⟨(i 0).val, hi0⟩) (2 : Fin 3) * 2 ≤ (i 2).val ∧ (i 2).val < win0_6.index (Fin.cast N_0.symm ⟨(i 0).val, hi0⟩) (2 : Fin 3) * 2 + 2
    omega

/-- The output array after the run. -/
theorem final (c : Dev nD) : (dats m 0 c).arrAt 6 cfg0.N = found m c :=
  (dats m 0 c).arrAt_eq_of_cover 6 (found m c) (fun t _ => flushed_eq m c t) cover

end Cert.KernelIdeal.Array

end
-- ==== Proof.KernelResult.lean ====
/-
  The kernel program's result as a function of its six argument arrays.

  Before the region the three `[128, n]` weight arguments are re-laid as `[128, 1, n]`; the float arguments reach the region
  as launched. So the output array the region leaves holds, at `(b, 0, j)`, batch `b`'s logit in column `j` as a function of the
  arguments, and re-laid as `[128, 2]` it is the array of logits. The host operations after the region are the tail applied
  to it.
-/
import proofs.«170633_j73358041416037_2_alg».proof.Proof.KernelArray
import Idealize.ShloMosaic.Lib.StableHlo.Run

set_option maxRecDepth 16384

noncomputable section

namespace Cert.KernelIdeal.Result

open Cert.KernelIdeal Cert.KernelIdeal.Gen Idealize.ShloMosaic Idealize.ShloMosaic.ValueIdx Idealize.ShloMosaic.TcCoe
open Idealize.SL.Sem Idealize.ShloMosaic.StableHlo Cert.MaxSim Cert.KernelIdeal.Body Cert.KernelIdeal.Array

variable (m : (ℓ : Loc nD τ sig) → Buf (Elt Ideal) ℓ)

/-! ## The weight arrays as the region finds them -/

theorem V_main_v0 (c : Dev nD) :
    (V m c main_v0 : S128x1x256.Idx → BitVec 32)
      = shapeCast S128x1x256 (m ((c : Thread nD τ).loc main_arg3)) shapeCasts_S128x256_S128x1x256 := by
  show StableHlo.after hostOps0 (fun b => m (c, b)) (Proc.devRef .tc main_v0) = _
  after_results
  rfl

theorem V_main_v1 (c : Dev nD) :
    (V m c main_v1 : S128x1x512.Idx → BitVec 32)
      = shapeCast S128x1x512 (m ((c : Thread nD τ).loc main_arg4)) shapeCasts_S128x512_S128x1x512 := by
  show StableHlo.after hostOps0 (fun b => m (c, b)) (Proc.devRef .tc main_v1) = _
  after_results
  rfl

theorem V_main_v2 (c : Dev nD) :
    (V m c main_v2 : S128x1x512.Idx → BitVec 32)
      = shapeCast S128x1x512 (m ((c : Thread nD τ).loc main_arg5)) shapeCasts_S128x512_S128x1x512 := by
  show StableHlo.after hostOps0 (fun b => m (c, b)) (Proc.devRef .tc main_v2) = _
  after_results
  rfl

/-! ## The found array, re-laid, is the array of logits -/

theorem logits_found (c : Dev nD) :
    shapeCast S128x2 (found m c) shapeCasts_S128x1x2_S128x2
      = logits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, j, rfl⟩ : ∃ (b : Fin 128) (j : Fin 2), i = ix2 b j := ⟨i 0, i 1, eq_ix2 i⟩
  refine (Cert.Lib.UnitAxes.shapeCast_b1n_bn_apply _ _ b j).trans ?_
  show arrayAt (V m c main_arg0) (V m c main_arg1) (V m c main_arg2) (V m c main_v0) (V m c main_v1) (V m c main_v2) b j
    = logitAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b j
  unfold arrayAt logitAt bankLogit
  rw [V_main_arg0 m c, V_main_arg1 m c, V_main_arg2 m c, V_main_v0 m c, V_main_v1 m c, V_main_v2 m c]
  simp only [Cert.Lib.UnitAxes.shapeCast_bn_b1n_apply]

/-! ## The host operations after the region -/

set_option maxHeartbeats 4000000 in
/-- From any contents of the buffers, the operations after the region leave the tail of the output array re-laid. -/
theorem tail_of_valuation (W : Valuation τ sig (Elt Ideal)) :
    StableHlo.after ([hostOps1, hostOps1_1, hostOps1_2] : List (List (HloOp τ sig (Elt Ideal)))).flatten W (Proc.devRef .tc main_v12)
      = tail (shapeCast S128x2 (W (Proc.devRef .tc main_v3) : S128x1x2.Idx → EReal) shapeCasts_S128x1x2_S128x2) := by
  simp only [hostOps1, hostOps1_1, hostOps1_2, List.flatten_cons, List.flatten_nil, List.append_nil, List.cons_append, List.nil_append]
  after_results_simp
  rfl

/-- The program's result after the run. -/
theorem result_eq (c : Dev nD) :
    Pipeline.afterTail₀ cfgs (dats m) 0 (V0 m) [hostOps1, hostOps1_1, hostOps1_2] c main_v12
      = tail (logits (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) := by
  unfold Pipeline.afterTail₀
  refine (tail_of_valuation _).trans ?_
  refine congrArg tail ?_
  have hA : (Pipeline.withArrays spec0 c (V0 m c) (fun w => (dats m 0 c).arrAt w cfg0.N) (Proc.devRef .tc main_v3) : S128x1x2.Idx → EReal)
      = found m c := (Pipeline.withArrays_arr spec0 launch0.win.arr_inj c _ _ 6).trans (final m c)
  exact (congrArg (fun X : S128x1x2.Idx → EReal => shapeCast S128x2 X shapeCasts_S128x1x2_S128x2) hA).trans (logits_found m c)

/-! ## The run -/

variable (ρ : Dev nD → PrngReg)

/-- Every weakly fair execution of the kernel program terminates with its result at the tail of the logits of its arguments,
    the arguments unchanged. -/
theorem run : θ_run defs (onTc (τ := τ) (main (F := Ideal))) ⟨m, fun _ => 0, ρ⟩ fun r => ∀ c : Dev nD,
      r.2.mem ((c.tc : Thread nD τ).loc main_v12)
        = tail (logits (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v12 (Pipeline.mem_restRefs_of main_v12 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c),
        ((h c).2 main_arg5 (Pipeline.mem_restRefs_of main_arg5 (by decide) (by decide))).trans (W_main_arg5 m (dats m) c)⟩)
    (run_main m ρ)

end Cert.KernelIdeal.Result

end
-- ==== Proof.HostRows.lean ====
/-
  The host's maximum along the last axis of a rank-3 array of extended reals, read at an index.

  Along axis 2 the index over `(b, p)` with coordinate `k` inserted is `(b, p, k)`; a one-operand reduction by `max` along that
  axis is, at `(b, p)`, the fold of `max` from the initial value over the entries `(b, p, k)`.
-/
import Idealize.ShloMosaic.PureOps.Ideal.Laws
import Idealize.ShloMosaic.Lib.ValueIdx

noncomputable section

namespace Cert.MaxSim.HostRows

open Idealize.ShloMosaic Idealize.ShloMosaic.ValueIdx

variable {A B C : ℕ}

/-- Along axis 2, the index over `(b, p)` with coordinate `k` inserted is `(b, p, k)`. -/
theorem lift_last (h : (⟨3, ![A, B, C]⟩ : Shape).Reduces [2] ⟨2, ![A, B]⟩) (b : Fin A) (p : Fin B) (k : Fin C) :
    h.lift (ix2 b p) k = ix3 b p k :=
  funext fun c => Fin.ext (by match c with | ⟨0, _⟩ => rfl | ⟨1, _⟩ => rfl | ⟨2, _⟩ => rfl)

/-- The host's maximum along the last axis, from its initial value: the fold of `max` over that axis's entries. -/
theorem hostMaxLast_apply (x : (⟨3, ![A, B, C]⟩ : Shape).Idx → EReal) (init : (⟨0, ![]⟩ : Shape).Idx → EReal)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (b : Fin A) (p : Fin B) :
    Host.reduce (FloatOps.maximumf (F := Ideal) (φ := .f32)) x init h' hu (ix2 b p)
      = (Finset.univ : Finset (Fin C)).fold max (init (Shape.Idx.first hu)) (fun k => x (ix3 b p k)) :=
  (Host.reduce_eq_fold_single (FloatOps.maximumf (F := Ideal) (φ := .f32)) x init h' h hu (ix2 b p)).trans
    (congrArg (fun f : Fin C → EReal => (Finset.univ : Finset (Fin C)).fold max (init (Shape.Idx.first hu)) f)
      (funext fun k => congrArg x (lift_last h b p k)))

end Cert.MaxSim.HostRows

end
-- ==== Proof.RefLogits.lean ====
/-
  The reference program's `[128, 2]` array of logits, read stage by stage, and the rest of the program as the shared tail.

  The reference scales every row of the three `[128, r, 1024]` arrays to unit length (the sum of squares along the last axis
  kept as a `[128, r, 1]` column and laid back), takes the batched product of the scaled queries with each scaled key bank
  (batch axis 0, contraction over the last axis), weights it by the bank's key weights laid over the query axis, maximises
  over the keys from `-∞`, weights by the query weights and sums over the queries. The two `[128]` results, kept as columns
  and joined, are the `[128, 2]` logits; every later operation of the program is the tail applied to them.
-/
import proofs.«170633_j73358041416037_2_alg».proof.Proof.RefRead
import proofs.«170633_j73358041416037_2_alg».proof.Proof.HostRows
import proofs.«170633_j73358041416037_2_alg».proof.Proof.LibUnitAxes
import proofs.«170633_j73358041416037_2_alg».proof.Proof.Spec

noncomputable section

namespace Cert.ReferenceIdeal.Logits

open Cert.ReferenceIdeal Cert.ReferenceIdeal.Gen Cert.ReferenceIdeal.ReadP Idealize.ShloMosaic Idealize.ShloMosaic.ValueIdx Cert.MaxSim

/-! ## Rows scaled to unit length -/

/-- The scaled query rows. -/
theorem unit_v7 (x : (⟨S128x256x1024, .f32⟩ : BufTy).Contents (Elt Ideal)) (b : Fin 128) (p : Fin 256) (d : Fin 1024) :
    val_main_v7 (F := Ideal) x (ix3 b p d) = unitRow (fun e => x (ix3 b p e)) d := by
  have ibc : idx_main_v6 (ix3 b p d) = ix3 b p (0 : Fin 1) := funext fun a => Fin.ext (by match a with | ⟨0, _⟩ => rfl | ⟨1, _⟩ => rfl | ⟨2, _⟩ => rfl)
  have icol : idx_main_v2 (ix3 b p (0 : Fin 1)) = ix2 b p := funext fun a => Fin.ext (by match a with | ⟨0, _⟩ => rfl | ⟨1, _⟩ => rfl)
  have isum : ∀ e : Fin 1024, idx_main_v1 (ix2 b p) e = ix3 b p e := fun e => funext fun a => Fin.ext (by match a with | ⟨0, _⟩ => rfl | ⟨1, _⟩ => rfl | ⟨2, _⟩ => rfl)
  rw [val_main_v7_apply, val_main_v6_apply, ibc, val_main_v5_apply, val_main_v3_apply, val_main_v2_apply, icol,
    val_main_v1_apply, val_main_v4_apply, val_main_cst_0_apply, val_main_cst_apply]
  simp only [isum, val_main_v0_apply, unitRow, Ideal.hostDivf_def, Ideal.maximumf_def, Ideal.hostUnary_sqrt_def, Ideal.ofBits_def,
    Ideal.mulf_def, Ideal.ofBits_zero_f32, zero_add]

/-- The scaled rows of the first key bank. -/
theorem unit_v15 (x : (⟨S128x512x1024, .f32⟩ : BufTy).Contents (Elt Ideal)) (b : Fin 128) (p : Fin 512) (d : Fin 1024) :
    val_main_v15 (F := Ideal) x (ix3 b p d) = unitRow (fun e => x (ix3 b p e)) d := by
  have ibc : idx_main_v14 (ix3 b p d) = ix3 b p (0 : Fin 1) := funext fun a => Fin.ext (by match a with | ⟨0, _⟩ => rfl | ⟨1, _⟩ => rfl | ⟨2, _⟩ => rfl)
  have icol : idx_main_v10 (ix3 b p (0 : Fin 1)) = ix2 b p := funext fun a => Fin.ext (by match a with | ⟨0, _⟩ => rfl | ⟨1, _⟩ => rfl)
  have isum : ∀ e : Fin 1024, idx_main_v9 (ix2 b p) e = ix3 b p e := fun e => funext fun a => Fin.ext (by match a with | ⟨0, _⟩ => rfl | ⟨1, _⟩ => rfl | ⟨2, _⟩ => rfl)
  rw [val_main_v15_apply, val_main_v14_apply, ibc, val_main_v13_apply, val_main_v11_apply, val_main_v10_apply, icol,
    val_main_v9_apply, val_main_v12_apply, val_main_cst_2_apply, val_main_cst_1_apply]
  simp only [isum, val_main_v8_apply, unitRow, Ideal.hostDivf_def, Ideal.maximumf_def, Ideal.hostUnary_sqrt_def, Ideal.ofBits_def,
    Ideal.mulf_def, Ideal.ofBits_zero_f32, zero_add]

/-- The scaled rows of the second key bank. -/
theorem unit_v23 (x : (⟨S128x512x1024, .f32⟩ : BufTy).Contents (Elt Ideal)) (b : Fin 128) (p : Fin 512) (d : Fin 1024) :
    val_main_v23 (F := Ideal) x (ix3 b p d) = unitRow (fun e => x (ix3 b p e)) d := by
  have ibc : idx_main_v22 (ix3 b p d) = ix3 b p (0 : Fin 1) := funext fun a => Fin.ext (by match a with | ⟨0, _⟩ => rfl | ⟨1, _⟩ => rfl | ⟨2, _⟩ => rfl)
  have icol : idx_main_v18 (ix3 b p (0 : Fin 1)) = ix2 b p := funext fun a => Fin.ext (by match a with | ⟨0, _⟩ => rfl | ⟨1, _⟩ => rfl)
  have isum : ∀ e : Fin 1024, idx_main_v17 (ix2 b p) e = ix3 b p e := fun e => funext fun a => Fin.ext (by match a with | ⟨0, _⟩ => rfl | ⟨1, _⟩ => rfl | ⟨2, _⟩ => rfl)
  rw [val_main_v23_apply, val_main_v22_apply, ibc, val_main_v21_apply, val_main_v19_apply, val_main_v18_apply, icol,
    val_main_v17_apply, val_main_v20_apply, val_main_cst_4_apply, val_main_cst_3_apply]
  simp only [isum, val_main_v16_apply, unitRow, Ideal.hostDivf_def, Ideal.maximumf_def, Ideal.hostUnary_sqrt_def, Ideal.ofBits_def,
    Ideal.mulf_def, Ideal.ofBits_zero_f32, zero_add]

/-! ## The first key bank -/

/-- Entry `(b, p, k)` of the batched product of the scaled rows: the similarity of batch `b`'s query row `p` and key row `k`. -/
theorem sim_v24 (x0 : (⟨S128x256x1024, .f32⟩ : BufTy).Contents (Elt Ideal)) (x1 : (⟨S128x512x1024, .f32⟩ : BufTy).Contents (Elt Ideal)) (b : Fin 128) (p : Fin 256) (k : Fin 512) :
    val_main_v24 (F := Ideal) x0 x1 (ix3 b p k) = sim (fun e => x0 (ix3 b p e)) (fun e => x1 (ix3 b k e)) := by
  rw [val_main_v24_apply]
  unfold sim
  refine Finset.sum_congr rfl fun d _ => ?_
  have il : lidx_main_v24 (ix3 b p k) d = ix3 b p d := funext fun a => Fin.ext (by match a with | ⟨0, _⟩ => rfl | ⟨1, _⟩ => rfl | ⟨2, _⟩ => rfl)
  have ir : ridx_main_v24 (ix3 b p k) d = ix3 b k d := funext fun a => Fin.ext (by match a with | ⟨0, _⟩ => rfl | ⟨1, _⟩ => rfl | ⟨2, _⟩ => rfl)
  rw [il, ir, unit_v7, unit_v15]

/-- The same weighted by the key weight. -/
theorem wsim_v28 (x0 : (⟨S128x256x1024, .f32⟩ : BufTy).Contents (Elt Ideal)) (x1 : (⟨S128x512x1024, .f32⟩ : BufTy).Contents (Elt Ideal)) (x4 : (⟨S128x512, .i32⟩ : BufTy).Contents (Elt Ideal)) (b : Fin 128) (p : Fin 256)
    (k : Fin 512) :
    val_main_v28 (F := Ideal) x0 x1 x4 (ix3 b p k)
      = sim (fun e => x0 (ix3 b p e)) (fun e => x1 (ix3 b k e)) * wt (x4 (ix2 b k)) := by
  have i1 : idx_main_v27 (ix3 b p k) = ix3 b (0 : Fin 1) k := funext fun a => Fin.ext (by match a with | ⟨0, _⟩ => rfl | ⟨1, _⟩ => rfl | ⟨2, _⟩ => rfl)
  have i2 : idx_main_v25 (ix3 b (0 : Fin 1) k) = ix2 b k := funext fun a => Fin.ext (by match a with | ⟨0, _⟩ => rfl | ⟨1, _⟩ => rfl)
  rw [val_main_v28_apply, sim_v24, val_main_v27_apply, i1, val_main_v26_apply, val_main_v25_apply, i2]
  rfl

/-- Its maximum over the keys, from `-∞`: the query row's score against the bank. -/
theorem best_v29 (x0 : (⟨S128x256x1024, .f32⟩ : BufTy).Contents (Elt Ideal)) (x1 : (⟨S128x512x1024, .f32⟩ : BufTy).Contents (Elt Ideal)) (x4 : (⟨S128x512, .i32⟩ : BufTy).Contents (Elt Ideal)) (b : Fin 128) (p : Fin 256) :
    val_main_v29 (F := Ideal) x0 x1 x4 (ix2 b p)
      = best (fun e => x0 (ix3 b p e)) (fun k e => x1 (ix3 b k e)) (fun k => wt (x4 (ix2 b k))) := by
  unfold val_main_v29 best
  refine (HostRows.hostMaxLast_apply (val_main_v28 (F := Ideal) x0 x1 x4) (val_main_cst_5 (F := Ideal))
    reducesTo_S128x256x512_S128x256_d2 (by decide) Cert.ReferenceIdeal.Gen.h_S_ b p).trans ?_
  exact congrArg (fun f : Fin 512 → EReal => (Finset.univ : Finset (Fin 512)).fold max negInf f)
    (funext fun k => wsim_v28 x0 x1 x4 b p k)

/-- The weighted sum of the scores over the query rows: the batch's logit against the bank. -/
theorem logit_v32 (x0 : (⟨S128x256x1024, .f32⟩ : BufTy).Contents (Elt Ideal)) (x1 : (⟨S128x512x1024, .f32⟩ : BufTy).Contents (Elt Ideal)) (x3 : (⟨S128x256, .i32⟩ : BufTy).Contents (Elt Ideal)) (x4 : (⟨S128x512, .i32⟩ : BufTy).Contents (Elt Ideal))
    (b : Fin 128) :
    val_main_v32 (F := Ideal) x0 x1 x3 x4 (ix1 b) = bankLogit x0 x1 x3 x4 b := by
  rw [val_main_v32_apply, val_main_cst_6_apply]
  unfold bankLogit logit
  rw [Ideal.ofBits_def, Ideal.ofBits_zero_f32, zero_add]
  refine Finset.sum_congr rfl fun p _ => ?_
  have e : idx_main_v32 (ix1 b) p = ix2 b p := funext fun a => Fin.ext (by match a with | ⟨0, _⟩ => rfl | ⟨1, _⟩ => rfl)
  rw [e, val_main_v31_apply, best_v29, val_main_v30_apply]
  rfl

/-- Kept as a column. -/
theorem col_v33 (x0 : (⟨S128x256x1024, .f32⟩ : BufTy).Contents (Elt Ideal)) (x1 : (⟨S128x512x1024, .f32⟩ : BufTy).Contents (Elt Ideal)) (x3 : (⟨S128x256, .i32⟩ : BufTy).Contents (Elt Ideal)) (x4 : (⟨S128x512, .i32⟩ : BufTy).Contents (Elt Ideal))
    (b : Fin 128) :
    val_main_v33 (F := Ideal) x0 x1 x3 x4 (ix2 b (0 : Fin 1)) = bankLogit x0 x1 x3 x4 b := by
  have e : idx_main_v33 (ix2 b (0 : Fin 1)) = ix1 b := funext fun a => Fin.ext (by match a with | ⟨0, _⟩ => rfl)
  rw [val_main_v33_apply, e, logit_v32]

/-! ## The second key bank -/

/-- Entry `(b, p, k)` of the batched product of the scaled rows: the similarity of batch `b`'s query row `p` and key row `k`. -/
theorem sim_v34 (x0 : (⟨S128x256x1024, .f32⟩ : BufTy).Contents (Elt Ideal)) (x2 : (⟨S128x512x1024, .f32⟩ : BufTy).Contents (Elt Ideal)) (b : Fin 128) (p : Fin 256) (k : Fin 512) :
    val_main_v34 (F := Ideal) x0 x2 (ix3 b p k) = sim (fun e => x0 (ix3 b p e)) (fun e => x2 (ix3 b k e)) := by
  rw [val_main_v34_apply]
  unfold sim
  refine Finset.sum_congr rfl fun d _ => ?_
  have il : lidx_main_v34 (ix3 b p k) d = ix3 b p d := funext fun a => Fin.ext (by match a with | ⟨0, _⟩ => rfl | ⟨1, _⟩ => rfl | ⟨2, _⟩ => rfl)
  have ir : ridx_main_v34 (ix3 b p k) d = ix3 b k d := funext fun a => Fin.ext (by match a with | ⟨0, _⟩ => rfl | ⟨1, _⟩ => rfl | ⟨2, _⟩ => rfl)
  rw [il, ir, unit_v7, unit_v23]

/-- The same weighted by the key weight. -/
theorem wsim_v38 (x0 : (⟨S128x256x1024, .f32⟩ : BufTy).Contents (Elt Ideal)) (x2 : (⟨S128x512x1024, .f32⟩ : BufTy).Contents (Elt Ideal)) (x5 : (⟨S128x512, .i32⟩ : BufTy).Contents (Elt Ideal)) (b : Fin 128) (p : Fin 256)
    (k : Fin 512) :
    val_main_v38 (F := Ideal) x0 x2 x5 (ix3 b p k)
      = sim (fun e => x0 (ix3 b p e)) (fun e => x2 (ix3 b k e)) * wt (x5 (ix2 b k)) := by
  have i1 : idx_main_v37 (ix3 b p k) = ix3 b (0 : Fin 1) k := funext fun a => Fin.ext (by match a with | ⟨0, _⟩ => rfl | ⟨1, _⟩ => rfl | ⟨2, _⟩ => rfl)
  have i2 : idx_main_v35 (ix3 b (0 : Fin 1) k) = ix2 b k := funext fun a => Fin.ext (by match a with | ⟨0, _⟩ => rfl | ⟨1, _⟩ => rfl)
  rw [val_main_v38_apply, sim_v34, val_main_v37_apply, i1, val_main_v36_apply, val_main_v35_apply, i2]
  rfl

/-- Its maximum over the keys, from `-∞`: the query row's score against the bank. -/
theorem best_v39 (x0 : (⟨S128x256x1024, .f32⟩ : BufTy).Contents (Elt Ideal)) (x2 : (⟨S128x512x1024, .f32⟩ : BufTy).Contents (Elt Ideal)) (x5 : (⟨S128x512, .i32⟩ : BufTy).Contents (Elt Ideal)) (b : Fin 128) (p : Fin 256) :
    val_main_v39 (F := Ideal) x0 x2 x5 (ix2 b p)
      = best (fun e => x0 (ix3 b p e)) (fun k e => x2 (ix3 b k e)) (fun k => wt (x5 (ix2 b k))) := by
  unfold val_main_v39 best
  refine (HostRows.hostMaxLast_apply (val_main_v38 (F := Ideal) x0 x2 x5) (val_main_cst_7 (F := Ideal))
    reducesTo_S128x256x512_S128x256_d2 (by decide) Cert.ReferenceIdeal.Gen.h_S_ b p).trans ?_
  exact congrArg (fun f : Fin 512 → EReal => (Finset.univ : Finset (Fin 512)).fold max negInf f)
    (funext fun k => wsim_v38 x0 x2 x5 b p k)

/-- The weighted sum of the scores over the query rows: the batch's logit against the bank. -/
theorem logit_v42 (x0 : (⟨S128x256x1024, .f32⟩ : BufTy).Contents (Elt Ideal)) (x2 : (⟨S128x512x1024, .f32⟩ : BufTy).Contents (Elt Ideal)) (x3 : (⟨S128x256, .i32⟩ : BufTy).Contents (Elt Ideal)) (x5 : (⟨S128x512, .i32⟩ : BufTy).Contents (Elt Ideal))
    (b : Fin 128) :
    val_main_v42 (F := Ideal) x0 x2 x3 x5 (ix1 b) = bankLogit x0 x2 x3 x5 b := by
  rw [val_main_v42_apply, val_main_cst_8_apply]
  unfold bankLogit logit
  rw [Ideal.ofBits_def, Ideal.ofBits_zero_f32, zero_add]
  refine Finset.sum_congr rfl fun p _ => ?_
  have e : idx_main_v42 (ix1 b) p = ix2 b p := funext fun a => Fin.ext (by match a with | ⟨0, _⟩ => rfl | ⟨1, _⟩ => rfl)
  rw [e, val_main_v41_apply, best_v39, val_main_v40_apply]
  rfl

/-- Kept as a column. -/
theorem col_v43 (x0 : (⟨S128x256x1024, .f32⟩ : BufTy).Contents (Elt Ideal)) (x2 : (⟨S128x512x1024, .f32⟩ : BufTy).Contents (Elt Ideal)) (x3 : (⟨S128x256, .i32⟩ : BufTy).Contents (Elt Ideal)) (x5 : (⟨S128x512, .i32⟩ : BufTy).Contents (Elt Ideal))
    (b : Fin 128) :
    val_main_v43 (F := Ideal) x0 x2 x3 x5 (ix2 b (0 : Fin 1)) = bankLogit x0 x2 x3 x5 b := by
  have e : idx_main_v43 (ix2 b (0 : Fin 1)) = ix1 b := funext fun a => Fin.ext (by match a with | ⟨0, _⟩ => rfl)
  rw [val_main_v43_apply, e, logit_v42]

/-! ## The logits, and the program after them -/

/-- The joined columns are the `[128, 2]` array of logits. -/
theorem logits_v44 (x0 : (⟨S128x256x1024, .f32⟩ : BufTy).Contents (Elt Ideal)) (x1 x2 : (⟨S128x512x1024, .f32⟩ : BufTy).Contents (Elt Ideal)) (x3 : (⟨S128x256, .i32⟩ : BufTy).Contents (Elt Ideal)) (x4 x5 : (⟨S128x512, .i32⟩ : BufTy).Contents (Elt Ideal)) :
    val_main_v44 (F := Ideal) x0 x1 x2 x3 x4 x5 = logits x0 x1 x2 x3 x4 x5 := by
  funext i
  obtain ⟨b, j, rfl⟩ : ∃ (b : Fin 128) (j : Fin 2), i = ix2 b j := ⟨i 0, i 1, eq_ix2 i⟩
  unfold val_main_v44
  show _ = logitAt x0 x1 x2 x3 x4 x5 b j
  unfold logitAt
  match j with
  | ⟨0, _⟩ =>
    rw [if_pos rfl]
    exact (Cert.Lib.UnitAxes.concatCols_zero _ _ _ b).trans (col_v33 x0 x1 x3 x4 b)
  | ⟨1, _⟩ =>
    rw [if_neg (fun h => absurd h (by decide : ¬ ((1 : ℕ) = 0)))]
    exact (Cert.Lib.UnitAxes.concatCols_one _ _ _ b).trans (col_v43 x0 x2 x3 x5 b)

set_option maxHeartbeats 1000000 in
/-- Every operation after the logits, composed, is the tail. -/
theorem v52_eq_tail (x0 : (⟨S128x256x1024, .f32⟩ : BufTy).Contents (Elt Ideal)) (x1 x2 : (⟨S128x512x1024, .f32⟩ : BufTy).Contents (Elt Ideal)) (x3 : (⟨S128x256, .i32⟩ : BufTy).Contents (Elt Ideal)) (x4 x5 : (⟨S128x512, .i32⟩ : BufTy).Contents (Elt Ideal)) :
    val_main_v52 (F := Ideal) x0 x1 x2 x3 x4 x5 = tail (val_main_v44 (F := Ideal) x0 x1 x2 x3 x4 x5) := rfl

/-- The reference's result as a function of its six argument arrays. -/
theorem result_eq (x0 : (⟨S128x256x1024, .f32⟩ : BufTy).Contents (Elt Ideal)) (x1 x2 : (⟨S128x512x1024, .f32⟩ : BufTy).Contents (Elt Ideal)) (x3 : (⟨S128x256, .i32⟩ : BufTy).Contents (Elt Ideal)) (x4 x5 : (⟨S128x512, .i32⟩ : BufTy).Contents (Elt Ideal)) :
    val_main_v52 (F := Ideal) x0 x1 x2 x3 x4 x5 = tail (logits x0 x1 x2 x3 x4 x5) :=
  (v52_eq_tail x0 x1 x2 x3 x4 x5).trans (congrArg tail (logits_v44 x0 x1 x2 x3 x4 x5))

end Cert.ReferenceIdeal.Logits

end
-- ==== Proof.lean ====
/-
  The kernel and its reference compute the same loss, as extended reals.

  Both programs take a batch of 128 problems: 256 query rows and two banks of 512 key rows, each row of 1024 numbers, with a
  0/1 weight per row. Each row is divided by `max (‖row‖₂, ε)`; the similarity of a query row and a key row is the inner
  product of the two scaled rows; a query row's score against a bank is the largest key-weighted similarity, the maximum taken
  from `-∞`; a batch's logit against a bank is the query-weighted sum of its rows' scores. The loss is the mean over the batches
  of `-log softmax` of the pair of logits over the temperature, at the first class.

  The kernel works one batch per grid point on blocks `[1, r, 1024]` and stores the batch's two logits in a `[128, 1, 2]` array;
  the reference works on the whole `[128, r, 1024]` arrays with a batched product. Entry by entry the two arrays of logits are
  the same sums, maxima and quotients of the same entries of the arguments (a change of float format is the identity on the
  extended reals, and the product into a zero accumulator is the plain sum of products), so no law beyond re-indexing is used
  and the precondition is never opened. After the logits both programs apply the same operations (`Cert.MaxSim.tail`).
  The ideal pass rewrote nothing, so `preserves` is `True`; the frames of the two kernel programs are the generated ones, and
  the reference's frame is its run with the result dropped.
-/
import proofs.«170633_j73358041416037_2_alg».proof.Defs
import proofs.«170633_j73358041416037_2_alg».proof.Proof.Gen.Kernel
import proofs.«170633_j73358041416037_2_alg».proof.Proof.Gen.Kernel.Skeleton
import proofs.«170633_j73358041416037_2_alg».proof.Proof.Gen.Kernel.Launch
import proofs.«170633_j73358041416037_2_alg».proof.Proof.Gen.Kernel.Points
import proofs.«170633_j73358041416037_2_alg».proof.Proof.Gen.Kernel.Frame
import proofs.«170633_j73358041416037_2_alg».proof.Proof.Gen.KernelIdeal
import proofs.«170633_j73358041416037_2_alg».proof.Proof.Gen.KernelIdeal.Skeleton
import proofs.«170633_j73358041416037_2_alg».proof.Proof.Gen.KernelIdeal.Launch
import proofs.«170633_j73358041416037_2_alg».proof.Proof.Gen.KernelIdeal.Points
import proofs.«170633_j73358041416037_2_alg».proof.Proof.Gen.KernelIdeal.Frame
import proofs.«170633_j73358041416037_2_alg».proof.Proof.Gen.ReferenceIdeal
import proofs.«170633_j73358041416037_2_alg».proof.Proof.Gen.Pre_finite_inputs
import proofs.«170633_j73358041416037_2_alg».proof.Proof.KernelResult
import proofs.«170633_j73358041416037_2_alg».proof.Proof.RefLogits
import Idealize.ShloMosaic.Adequacy
import Idealize.ShloMosaic.Init

noncomputable section

namespace Cert.Proof

open Idealize.ShloMosaic Idealize.ShloMosaic.TcCoe Idealize.SL.Sem Cert.MaxSim

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at the tail of the logits of the arguments, and the arguments agree. -/
theorem algebraic : Cert.algebraic_KernelIdeal_ReferenceIdeal := by
  intro m ρ m' ρ' _ hagree
  refine ⟨fun c => tail (logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))),
    Cert.KernelIdeal.Result.run m ρ, ?_⟩
  refine (θ_run Cert.ReferenceIdeal.defs _ _).mono (fun _ h c => ⟨?_, (h c).2⟩)
    (Cert.ReferenceIdeal.ValueP.run (F := Ideal) m' ρ')
  obtain ⟨e0, e1, e2, e3, e4, e5⟩ := hagree c
  refine ((h c).1.trans (Cert.ReferenceIdeal.ReadP.val_main_v52_eq m' c)).trans ?_
  refine (Cert.ReferenceIdeal.Logits.result_eq _ _ _ _ _ _).trans ?_
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
